-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64000x32 : Shape := ⟨2, ![64000, 32]⟩
abbrev S2x1024000 : Shape := ⟨2, ![2, 1024000]⟩
abbrev S64000 : Shape := ⟨1, ![64000]⟩
abbrev S32x64 : Shape := ⟨2, ![32, 64]⟩
abbrev S64 : Shape := ⟨1, ![64]⟩
abbrev S64x64 : Shape := ⟨2, ![64, 64]⟩
abbrev S64000x1000 : Shape := ⟨2, ![64000, 1000]⟩
abbrev S1000 : Shape := ⟨1, ![1000]⟩
abbrev S1000x1 : Shape := ⟨2, ![1000, 1]⟩
abbrev S1 : Shape := ⟨1, ![1]⟩
abbrev S_ : Shape := ⟨0, ![]⟩

class Facts : Prop where
  bcast_S_S64000x32 : S_.BroadcastsInDim S64000x32 (![] : Fin 0 → Fin S64000x32.rank)
  reducesTo_S64000x32_S_d0_1 : S64000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64000x1000 : S_.BroadcastsInDim S64000x1000 (![] : Fin 0 → Fin S64000x1000.rank)
  reducesTo_S64000x1000_S_d0_1 : S64000x1000.ReducesTo [0, 1] S_
  bcast_S_S1000 : S_.BroadcastsInDim S1000 (![] : Fin 0 → Fin S1000.rank)
  reducesTo_S1000_S_d0 : S1000.ReducesTo [0] S_
  bcast_S_S1000x1 : S_.BroadcastsInDim S1000x1 (![] : Fin 0 → Fin S1000x1.rank)
  reducesTo_S1000x1_S_d0_1 : S1000x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1000x1 .f32) (main_arg10 : FVec F S1 .f32) (main_v33 : IVec S_ 1) : IVec S_ 1 :=
  let main_v34 : FVec F S1000x1 .f32 := Host.absf main_arg9
  let main_cst_12 : FVec F S_ .f32 := constant S_ .f32 0x7F800000#32
  let main_v35 : FVec F S1000x1 .f32 := broadcastInDim S1000x1 ![] bcast_S_S1000x1 main_cst_12
  let main_v36 : IVec S1000x1 1 := cmpf .olt main_v34 main_v35
  let main_c_13 : IVec S_ 1 := constantI S_ 1 1#1
  let main_v37 : IVec S_ 1 := (fun x v => Host.reduce IntOp.andi x v reducesTo_S1000x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64000x1000 .f32) (main_arg8 : FVec F S1000 .f32) (main_arg9 : FVec F S1000x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64000x1000 .f32 := Host.absf main_arg7
  let main_cst_8 : FVec F S_ .f32 := constant S_ .f32 0x7F800000#32
  let main_v25 : FVec F S64000x1000 .f32 := broadcastInDim S64000x1000 ![] bcast_S_S64000x1000 main_cst_8
  let main_v26 : IVec S64000x1000 1 := cmpf .olt main_v24 main_v25
  let main_c_9 : IVec S_ 1 := constantI S_ 1 1#1
  let main_v27 : IVec S_ 1 := (fun x v => Host.reduce IntOp.andi x v reducesTo_S64000x1000_S_d0_1 h_S_) main_v26 main_c_9
  let main_v28 : IVec S_ 1 := andi main_v23 main_v27
  let main_v29 : FVec F S1000 .f32 := Host.absf main_arg8
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg9 main_arg10 main_v33

def fn {F : FTy → Type} [FloatOps F] (main_arg0 : FVec F S64000x32 .f32) (main_arg1 : IVec S2x1024000 32) (main_arg2 : IVec S64000 32) (main_arg3 : FVec F S32x64 .f32) (main_arg4 : FVec F S64 .f32) (main_arg5 : FVec F S64x64 .f32) (main_arg6 : FVec F S64 .f32) (main_arg7 : FVec F S64000x1000 .f32) (main_arg8 : FVec F S1000 .f32) (main_arg9 : FVec F S1000x1 .f32) (main_arg10 : FVec F S1 .f32) : IVec S_ 1 :=
  let main_v0 : FVec F S64000x32 .f32 := Host.absf main_arg0
  let main_cst : FVec F S_ .f32 := constant S_ .f32 0x7F800000#32
  let main_v1 : FVec F S64000x32 .f32 := broadcastInDim S64000x32 ![] bcast_S_S64000x32 main_cst
  let main_v2 : IVec S64000x32 1 := cmpf .olt main_v0 main_v1
  let main_c : IVec S_ 1 := constantI S_ 1 1#1
  let main_v3 : IVec S_ 1 := (fun x v => Host.reduce IntOp.andi x v reducesTo_S64000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S64000x32 : Shape := ⟨2, ![64000, 32]⟩
abbrev S2x1024000 : Shape := ⟨2, ![2, 1024000]⟩
abbrev S64000 : Shape := ⟨1, ![64000]⟩
abbrev S32x64 : Shape := ⟨2, ![32, 64]⟩
abbrev S64 : Shape := ⟨1, ![64]⟩
abbrev S64x64 : Shape := ⟨2, ![64, 64]⟩
abbrev S64000x1000 : Shape := ⟨2, ![64000, 1000]⟩
abbrev S1000 : Shape := ⟨1, ![1000]⟩
abbrev S1000x1 : Shape := ⟨2, ![1000, 1]⟩
abbrev S1 : Shape := ⟨1, ![1]⟩
abbrev S1x1024000 : Shape := ⟨2, ![1, 1024000]⟩
abbrev S1024000 : Shape := ⟨1, ![1024000]⟩
abbrev S1088000 : Shape := ⟨1, ![1088000]⟩
abbrev S_ : Shape := ⟨0, ![]⟩
abbrev S1088000x1 : Shape := ⟨2, ![1088000, 1]⟩
abbrev S64000x64 : Shape := ⟨2, ![64000, 64]⟩
abbrev S1088000x64 : Shape := ⟨2, ![1088000, 64]⟩
abbrev S1x64 : Shape := ⟨2, ![1, 64]⟩
abbrev S64x64000 : Shape := ⟨2, ![64, 64000]⟩
abbrev S1x1000 : Shape := ⟨2, ![1, 1000]⟩
abbrev S1x1 : Shape := ⟨2, ![1, 1]⟩
abbrev S64x1 : Shape := ⟨2, ![64, 1]⟩
abbrev S64x3200 : Shape := ⟨2, ![64, 3200]⟩
abbrev S3200x1000 : Shape := ⟨2, ![3200, 1000]⟩
abbrev S64x1000 : Shape := ⟨2, ![64, 1000]⟩

abbrev nBuf : Space → Nat
  | .hbm => 130
  | .vmem => 9
  | .smem => 0
  | _ => 0

abbrev hbmTy0_0 (i : Nat) : BufTy := match i % 128 with
  | 0 => ⟨S64000x32, .f32⟩
  | 1 => ⟨S2x1024000, .i32⟩
  | 2 => ⟨S64000, .i32⟩
  | 3 => ⟨S32x64, .f32⟩
  | 4 => ⟨S64, .f32⟩
  | 5 => ⟨S64x64, .f32⟩
  | 6 => ⟨S64, .f32⟩
  | 7 => ⟨S64000x1000, .f32⟩
  | 8 => ⟨S1000, .f32⟩
  | 9 => ⟨S1000x1, .f32⟩
  | 10 => ⟨S1, .f32⟩
  | 11 => ⟨S64000, .i32⟩
  | 12 => ⟨S1x1024000, .i32⟩
  | 13 => ⟨S1024000, .i32⟩
  | 14 => ⟨S1088000, .i32⟩
  | 15 => ⟨S1x1024000, .i32⟩
  | 16 => ⟨S1024000, .i32⟩
  | 17 => ⟨S1088000, .i32⟩
  | 18 => ⟨S_, .f32⟩
  | 19 => ⟨S1088000, .f32⟩
  | 20 => ⟨S_, .f32⟩
  | 21 => ⟨S64000, .f32⟩
  | 22 => ⟨S1088000x1, .i32⟩
  | 23 => ⟨S64000, .f32⟩
  | 24 => ⟨S_, .f32⟩
  | 25 => ⟨S64000, .f32⟩
  | 26 => ⟨S64000, .i1⟩
  | 27 => ⟨S64000, .f32⟩
  | 28 => ⟨S_, .f32⟩
  | 29 => ⟨S_, .f32⟩
  | 30 => ⟨S64000, .f32⟩
  | 31 => ⟨S64000, .f32⟩
  | 32 => ⟨S_, .i32⟩
  | 33 => ⟨S1088000, .i32⟩
  | 34 => ⟨S1088000, .i1⟩
  | 35 => ⟨S_, .i32⟩
  | 36 => ⟨S1088000, .i32⟩
  | 37 => ⟨S1088000, .i32⟩
  | 38 => ⟨S1088000, .i32⟩
  | 39 => ⟨S1088000x1, .i32⟩
  | 40 => ⟨S1088000, .f32⟩
  | 41 => ⟨S_, .i32⟩
  | 42 => ⟨S1088000, .i32⟩
  | 43 => ⟨S1088000, .i1⟩
  | 44 => ⟨S_, .i32⟩
  | 45 => ⟨S1088000, .i32⟩
  | 46 => ⟨S1088000, .i32⟩
  | 47 => ⟨S1088000, .i32⟩
  | 48 => ⟨S1088000x1, .i32⟩
  | 49 => ⟨S1088000, .f32⟩
  | 50 => ⟨S1088000, .f32⟩
  | 51 => ⟨S64000x64, .f32⟩
  | 52 => ⟨S_, .i32⟩
  | 53 => ⟨S1088000, .i32⟩
  | 54 => ⟨S1088000, .i1⟩
  | 55 => ⟨S_, .i32⟩
  | 56 => ⟨S1088000, .i32⟩
  | 57 => ⟨S1088000, .i32⟩
  | 58 => ⟨S1088000, .i32⟩
  | 59 => ⟨S1088000x1, .i32⟩
  | 60 => ⟨S1088000x64, .f32⟩
  | 61 => ⟨S1088000x1, .f32⟩
  | 62 => ⟨S1088000x64, .f32⟩
  | 63 => ⟨S1088000x64, .f32⟩
  | 64 => ⟨S_, .f32⟩
  | 65 => ⟨S64000x64, .f32⟩
  | 66 => ⟨S1088000x1, .i32⟩
  | 67 => ⟨S64000x64, .f32⟩
  | 68 => ⟨S1x64, .f32⟩
  | 69 => ⟨S64000x64, .f32⟩
  | 70 => ⟨S64000x64, .f32⟩
  | 71 => ⟨S64000x64, .f32⟩
  | 72 => ⟨S_, .f32⟩
  | 73 => ⟨S1088000, .f32⟩
  | 74 => ⟨S_, .f32⟩
  | 75 => ⟨S64000, .f32⟩
  | 76 => ⟨S1088000x1, .i32⟩
  | 77 => ⟨S64000, .f32⟩
  | 78 => ⟨S_, .f32⟩
  | 79 => ⟨S64000, .f32⟩
  | 80 => ⟨S64000, .i1⟩
  | 81 => ⟨S64000, .f32⟩
  | 82 => ⟨S_, .f32⟩
  | 83 => ⟨S_, .f32⟩
  | 84 => ⟨S64000, .f32⟩
  | 85 => ⟨S64000, .f32⟩
  | 86 => ⟨S_, .i32⟩
  | 87 => ⟨S1088000, .i32⟩
  | 88 => ⟨S1088000, .i1⟩
  | 89 => ⟨S_, .i32⟩
  | 90 => ⟨S1088000, .i32⟩
  | 91 => ⟨S1088000, .i32⟩
  | 92 => ⟨S1088000, .i32⟩
  | 93 => ⟨S1088000x1, .i32⟩
  | 94 => ⟨S1088000, .f32⟩
  | 95 => ⟨S_, .i32⟩
  | 96 => ⟨S1088000, .i32⟩
  | 97 => ⟨S1088000, .i1⟩
  | 98 => ⟨S_, .i32⟩
  | 99 => ⟨S1088000, .i32⟩
  | 100 => ⟨S1088000, .i32⟩
  | 101 => ⟨S1088000, .i32⟩
  | 102 => ⟨S1088000x1, .i32⟩
  | 103 => ⟨S1088000, .f32⟩
  | 104 => ⟨S1088000, .f32⟩
  | 105 => ⟨S64000x64, .f32⟩
  | 106 => ⟨S_, .i32⟩
  | 107 => ⟨S1088000, .i32⟩
  | 108 => ⟨S1088000, .i1⟩
  | 109 => ⟨S_, .i32⟩
  | 110 => ⟨S1088000, .i32⟩
  | 111 => ⟨S1088000, .i32⟩
  | 112 => ⟨S1088000, .i32⟩
  | 113 => ⟨S1088000x1, .i32⟩
  | 114 => ⟨S1088000x64, .f32⟩
  | 115 => ⟨S1088000x1, .f32⟩
  | 116 => ⟨S1088000x64, .f32⟩
  | 117 => ⟨S1088000x64, .f32⟩
  | 118 => ⟨S_, .f32⟩
  | 119 => ⟨S64000x64, .f32⟩
  | 120 => ⟨S1088000x1, .i32⟩
  | 121 => ⟨S64000x64, .f32⟩
  | 122 => ⟨S1x64, .f32⟩
  | 123 => ⟨S64000x64, .f32⟩
  | 124 => ⟨S64000x64, .f32⟩
  | 125 => ⟨S64000x64, .f32⟩
  | 126 => ⟨S64x64000, .f32⟩
  | 127 => ⟨S1x1000, .f32⟩
  | _ => ⟨S64000x32, .f32⟩

abbrev hbmTy0_1 (i : Nat) : BufTy := match i % 128 with
  | 0 => ⟨S1x1, .f32⟩
  | 1 => ⟨S64x1, .f32⟩
  | _ => ⟨S64000x32, .f32⟩

abbrev hbmTy (i : Nat) : BufTy := match i / 128 with
  | 0 => hbmTy0_0 i
  | 1 => hbmTy0_1 i
  | _ => ⟨S64000x32, .f32⟩

abbrev bufTy : (tb : Table) → Fin (tcTables nBuf tb) → BufTy
  | .hbm, ⟨i, _⟩ => hbmTy i
  | .local _ .vmem, ⟨0, _⟩ => ⟨S64x3200, .f32⟩
  | .local _ .vmem, ⟨1, _⟩ => ⟨S64x3200, .f32⟩
  | .local _ .vmem, ⟨2, _⟩ => ⟨S3200x1000, .f32⟩
  | .local _ .vmem, ⟨3, _⟩ => ⟨S3200x1000, .f32⟩
  | .local _ .vmem, ⟨4, _⟩ => ⟨S1x1000, .f32⟩
  | .local _ .vmem, ⟨5, _⟩ => ⟨S1000x1, .f32⟩
  | .local _ .vmem, ⟨6, _⟩ => ⟨S1x1, .f32⟩
  | .local _ .vmem, ⟨7, _⟩ => ⟨S64x1, .f32⟩
  | .local _ .vmem, ⟨8, _⟩ => ⟨S64x1000, .f32⟩
  | _, _ => ⟨S64000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S2x1024000_S1x1024000_0_0 : S2x1024000.Slices ![0, 0] S1x1024000
  shapeCasts_S1x1024000_S1024000 : S1x1024000.ShapeCasts S1024000
  concatenates_S1024000_S64000_S1088000_d0 : Shape.Concatenates [S1024000, S64000] S1088000 0
  slices_S2x1024000_S1x1024000_1_0 : S2x1024000.Slices ![1, 0] S1x1024000
  bcast_S_S1088000 : S_.BroadcastsInDim S1088000 (![] : Fin 0 → Fin S1088000.rank)
  bcast_S_S64000 : S_.BroadcastsInDim S64000 (![] : Fin 0 → Fin S64000.rank)
  bcast_S1088000_S1088000x1_0 : S1088000.BroadcastsInDim S1088000x1 (![0] : Fin 1 → Fin S1088000x1.rank)
  bcast_S1088000x1_S1088000x64_0_1 : S1088000x1.BroadcastsInDim S1088000x64 (![0, 1] : Fin 2 → Fin S1088000x64.rank)
  bcast_S_S64000x64 : S_.BroadcastsInDim S64000x64 (![] : Fin 0 → Fin S64000x64.rank)
  bcast_S64_S1x64_1 : S64.BroadcastsInDim S1x64 (![1] : Fin 1 → Fin S1x64.rank)
  bcast_S1x64_S64000x64_0_1 : S1x64.BroadcastsInDim S64000x64 (![0, 1] : Fin 2 → Fin S64000x64.rank)
  shapeCasts_S64000x64_S64x64000 : S64000x64.ShapeCasts S64x64000
  shapeCasts_S1000_S1x1000 : S1000.ShapeCasts S1x1000
  shapeCasts_S1_S1x1 : S1.ShapeCasts S1x1
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S64x3200_S64x3200_0_0 : ∀ a, (![0, 0] : Fin 2 → Nat) a + S64x3200.size a ≤ S64x3200.size a
  h_S64x3200 : 0 < S64x3200.numel
  shapeCasts_S64x3200_S64x3200 : S64x3200.ShapeCasts S64x3200
  bitsLt_bf16_f32 : FTy.bits .bf16 < FTy.bits .f32
  inb_S3200x1000_S3200x1000_0_0 : ∀ a, (![0, 0] : Fin 2 → Nat) a + S3200x1000.size a ≤ S3200x1000.size a
  h_S3200x1000 : 0 < S3200x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S64x1000 : S1x1000.Broadcasts S64x1000
  inb_S1000x1_S1000x1_0_0 : ∀ a, (![0, 0] : Fin 2 → Nat) a + S1000x1.size a ≤ S1000x1.size a
  h_S1000x1 : 0 < S1000x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S64000_S1088000x1_S1088000_n_0_0_1_wf : ScatterDims.WF S64000 S1088000x1 S1088000 [] [0] [0] 1
  gather_S64000_S1088000x1_S1088000_n_0_n_n_0_1_1_wf : GatherDims.WF S64000 S1088000x1 S1088000 [] [0] [] [0] [] 1 ![1]
  dot_S64000x32_S32x64_S64000x64_1_0_0_1_n_n_wf : DotDims.WF S64000x32 S32x64 S64000x64 [1] [0] [0] [1] [] []
  gather_S64000x64_S1088000x1_S1088000x64_1_0_n_n_0_1_164_wf : GatherDims.WF S64000x64 S1088000x1 S1088000x64 [1] [0] [] [0] [] 1 ![1, 64]
  scatter_S64000x64_S1088000x1_S1088000x64_1_0_0_1_wf : ScatterDims.WF S64000x64 S1088000x1 S1088000x64 [1] [0] [0] 1
  dot_S64000x64_S64x64_S64000x64_1_0_0_1_n_n_wf : DotDims.WF S64000x64 S64x64 S64000x64 [1] [0] [0] [1] [] []
  dot_S64x3200_S3200x1000_S64x1000_1_0_0_1_n_n_wf : DotDims.WF S64x3200 S3200x1000 S64x1000 [1] [0] [0] [1] [] []
  dot_S64x1000_S1000x1_S64x1_1_0_0_1_n_n_wf : DotDims.WF S64x1000 S1000x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3200.size a ≤ S64x64000.size a
  hwx0_0 : ∀ i : grid0.Coords, EltTy.bits .f32 = 32 ∨ (Rect.block (s := S64x64000) S64x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1000.size a ≤ S64000x1000.size a
  hwx0_1 : ∀ i : grid0.Coords, EltTy.bits .f32 = 32 ∨ (Rect.block (s := S64000x1000) S3200x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S1000x1.size a
  hwx0_3 : ∀ i : grid0.Coords, EltTy.bits .f32 = 32 ∨ (Rect.block (s := S1000x1) S1000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)

variable [Facts₀]

def scatter_S64000_S1088000x1_S1088000_n_0_0_1 : ScatterDims S64000 S1088000x1 S1088000 where
  updateWindowDims := []
  insertedWindowDims := [0]
  scatterDimsToOperandDims := [0]
  indexVectorDim := 1
  wf := scatter_S64000_S1088000x1_S1088000_n_0_0_1_wf
def gather_S64000_S1088000x1_S1088000_n_0_n_n_0_1_1 : GatherDims S64000 S1088000x1 S1088000 where
  offsetDims := []
  collapsedSliceDims := [0]
  operandBatchingDims := []
  startIndicesBatchingDims := []
  startIndexMap := [0]
  indexVectorDim := 1
  sliceSizes := ![1]
  wf := gather_S64000_S1088000x1_S1088000_n_0_n_n_0_1_1_wf
def dot_S64000x32_S32x64_S64000x64_1_0_0_1_n_n : DotDims S64000x32 S32x64 S64000x64 where
  lhsContracting := [1]
  rhsContracting := [0]
  lhsNonContracting := [0]
  rhsNonContracting := [1]
  lhsBatch := []
  rhsBatch := []
  wf := dot_S64000x32_S32x64_S64000x64_1_0_0_1_n_n_wf
def gather_S64000x64_S1088000x1_S1088000x64_1_0_n_n_0_1_164 : GatherDims S64000x64 S1088000x1 S1088000x64 where
  offsetDims := [1]
  collapsedSliceDims := [0]
  operandBatchingDims := []
  startIndicesBatchingDims := []
  startIndexMap := [0]
  indexVectorDim := 1
  sliceSizes := ![1, 64]
  wf := gather_S64000x64_S1088000x1_S1088000x64_1_0_n_n_0_1_164_wf
def scatter_S64000x64_S1088000x1_S1088000x64_1_0_0_1 : ScatterDims S64000x64 S1088000x1 S1088000x64 where
  updateWindowDims := [1]
  insertedWindowDims := [0]
  scatterDimsToOperandDims := [0]
  indexVectorDim := 1
  wf := scatter_S64000x64_S1088000x1_S1088000x64_1_0_0_1_wf
def dot_S64000x64_S64x64_S64000x64_1_0_0_1_n_n : DotDims S64000x64 S64x64 S64000x64 where
  lhsContracting := [1]
  rhsContracting := [0]
  lhsNonContracting := [0]
  rhsNonContracting := [1]
  lhsBatch := []
  rhsBatch := []
  wf := dot_S64000x64_S64x64_S64000x64_1_0_0_1_n_n_wf
def dot_S64x3200_S3200x1000_S64x1000_1_0_0_1_n_n : DotDims S64x3200 S3200x1000 S64x1000 where
  lhsContracting := [1]
  rhsContracting := [0]
  lhsNonContracting := [0]
  rhsNonContracting := [1]
  lhsBatch := []
  rhsBatch := []
  wf := dot_S64x3200_S3200x1000_S64x1000_1_0_0_1_n_n_wf
def dot_S64x1000_S1000x1_S64x1_1_0_0_1_n_n : DotDims S64x1000 S1000x1 S64x1 where
  lhsContracting := [1]
  rhsContracting := [0]
  lhsNonContracting := [0]
  rhsNonContracting := [1]
  lhsBatch := []
  rhsBatch := []
  wf := dot_S64x1000_S1000x1_S64x1_1_0_0_1_n_n_wf

abbrev win0_0 : Pipeline.Window sig grid0 :=
  Pipeline.Window.ofSpec (Memref.whole main_v89) S64x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S3200x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v90) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S1000x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v91) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v92) S64x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64000x32 : Shape := ⟨2, ![64000, 32]⟩
abbrev S2x1024000 : Shape := ⟨2, ![2, 1024000]⟩
abbrev S64000 : Shape := ⟨1, ![64000]⟩
abbrev S32x64 : Shape := ⟨2, ![32, 64]⟩
abbrev S64 : Shape := ⟨1, ![64]⟩
abbrev S64x64 : Shape := ⟨2, ![64, 64]⟩
abbrev S64000x1000 : Shape := ⟨2, ![64000, 1000]⟩
abbrev S1000 : Shape := ⟨1, ![1000]⟩
abbrev S1000x1 : Shape := ⟨2, ![1000, 1]⟩
abbrev S1 : Shape := ⟨1, ![1]⟩
abbrev S1x1024000 : Shape := ⟨2, ![1, 1024000]⟩
abbrev S1024000 : Shape := ⟨1, ![1024000]⟩
abbrev S1088000 : Shape := ⟨1, ![1088000]⟩
abbrev S_ : Shape := ⟨0, ![]⟩
abbrev S1088000x1 : Shape := ⟨2, ![1088000, 1]⟩
abbrev S64000x64 : Shape := ⟨2, ![64000, 64]⟩
abbrev S1088000x64 : Shape := ⟨2, ![1088000, 64]⟩
abbrev S1x64 : Shape := ⟨2, ![1, 64]⟩
abbrev S64x64000 : Shape := ⟨2, ![64, 64000]⟩
abbrev S64x1000 : Shape := ⟨2, ![64, 1000]⟩
abbrev S1x1000 : Shape := ⟨2, ![1, 1000]⟩
abbrev S64x1 : Shape := ⟨2, ![64, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S64000x32, .f32⟩
  | 1 => ⟨S2x1024000, .i32⟩
  | 2 => ⟨S64000, .i32⟩
  | 3 => ⟨S32x64, .f32⟩
  | 4 => ⟨S64, .f32⟩
  | 5 => ⟨S64x64, .f32⟩
  | 6 => ⟨S64, .f32⟩
  | 7 => ⟨S64000x1000, .f32⟩
  | 8 => ⟨S1000, .f32⟩
  | 9 => ⟨S1000x1, .f32⟩
  | 10 => ⟨S1, .f32⟩
  | 11 => ⟨S64000, .i32⟩
  | 12 => ⟨S1x1024000, .i32⟩
  | 13 => ⟨S1024000, .i32⟩
  | 14 => ⟨S1088000, .i32⟩
  | 15 => ⟨S1x1024000, .i32⟩
  | 16 => ⟨S1024000, .i32⟩
  | 17 => ⟨S1088000, .i32⟩
  | 18 => ⟨S_, .f32⟩
  | 19 => ⟨S1088000, .f32⟩
  | 20 => ⟨S_, .f32⟩
  | 21 => ⟨S64000, .f32⟩
  | 22 => ⟨S1088000x1, .i32⟩
  | 23 => ⟨S64000, .f32⟩
  | 24 => ⟨S_, .f32⟩
  | 25 => ⟨S64000, .f32⟩
  | 26 => ⟨S64000, .i1⟩
  | 27 => ⟨S64000, .f32⟩
  | 28 => ⟨S_, .f32⟩
  | 29 => ⟨S_, .f32⟩
  | 30 => ⟨S64000, .f32⟩
  | 31 => ⟨S64000, .f32⟩
  | 32 => ⟨S_, .i32⟩
  | 33 => ⟨S1088000, .i32⟩
  | 34 => ⟨S1088000, .i1⟩
  | 35 => ⟨S_, .i32⟩
  | 36 => ⟨S1088000, .i32⟩
  | 37 => ⟨S1088000, .i32⟩
  | 38 => ⟨S1088000, .i32⟩
  | 39 => ⟨S1088000x1, .i32⟩
  | 40 => ⟨S1088000, .f32⟩
  | 41 => ⟨S_, .i32⟩
  | 42 => ⟨S1088000, .i32⟩
  | 43 => ⟨S1088000, .i1⟩
  | 44 => ⟨S_, .i32⟩
  | 45 => ⟨S1088000, .i32⟩
  | 46 => ⟨S1088000, .i32⟩
  | 47 => ⟨S1088000, .i32⟩
  | 48 => ⟨S1088000x1, .i32⟩
  | 49 => ⟨S1088000, .f32⟩
  | 50 => ⟨S1088000, .f32⟩
  | 51 => ⟨S64000x64, .f32⟩
  | 52 => ⟨S_, .i32⟩
  | 53 => ⟨S1088000, .i32⟩
  | 54 => ⟨S1088000, .i1⟩
  | 55 => ⟨S_, .i32⟩
  | 56 => ⟨S1088000, .i32⟩
  | 57 => ⟨S1088000, .i32⟩
  | 58 => ⟨S1088000, .i32⟩
  | 59 => ⟨S1088000x1, .i32⟩
  | 60 => ⟨S1088000x64, .f32⟩
  | 61 => ⟨S1088000x1, .f32⟩
  | 62 => ⟨S1088000x64, .f32⟩
  | 63 => ⟨S1088000x64, .f32⟩
  | 64 => ⟨S_, .f32⟩
  | 65 => ⟨S64000x64, .f32⟩
  | 66 => ⟨S1088000x1, .i32⟩
  | 67 => ⟨S64000x64, .f32⟩
  | 68 => ⟨S1x64, .f32⟩
  | 69 => ⟨S64000x64, .f32⟩
  | 70 => ⟨S64000x64, .f32⟩
  | 71 => ⟨S64000x64, .f32⟩
  | 72 => ⟨S_, .f32⟩
  | 73 => ⟨S1088000, .f32⟩
  | 74 => ⟨S_, .f32⟩
  | 75 => ⟨S64000, .f32⟩
  | 76 => ⟨S1088000x1, .i32⟩
  | 77 => ⟨S64000, .f32⟩
  | 78 => ⟨S_, .f32⟩
  | 79 => ⟨S64000, .f32⟩
  | 80 => ⟨S64000, .i1⟩
  | 81 => ⟨S64000, .f32⟩
  | 82 => ⟨S_, .f32⟩
  | 83 => ⟨S_, .f32⟩
  | 84 => ⟨S64000, .f32⟩
  | 85 => ⟨S64000, .f32⟩
  | 86 => ⟨S_, .i32⟩
  | 87 => ⟨S1088000, .i32⟩
  | 88 => ⟨S1088000, .i1⟩
  | 89 => ⟨S_, .i32⟩
  | 90 => ⟨S1088000, .i32⟩
  | 91 => ⟨S1088000, .i32⟩
  | 92 => ⟨S1088000, .i32⟩
  | 93 => ⟨S1088000x1, .i32⟩
  | 94 => ⟨S1088000, .f32⟩
  | 95 => ⟨S_, .i32⟩
  | 96 => ⟨S1088000, .i32⟩
  | 97 => ⟨S1088000, .i1⟩
  | 98 => ⟨S_, .i32⟩
  | 99 => ⟨S1088000, .i32⟩
  | 100 => ⟨S1088000, .i32⟩
  | 101 => ⟨S1088000, .i32⟩
  | 102 => ⟨S1088000x1, .i32⟩
  | 103 => ⟨S1088000, .f32⟩
  | 104 => ⟨S1088000, .f32⟩
  | 105 => ⟨S64000x64, .f32⟩
  | 106 => ⟨S_, .i32⟩
  | 107 => ⟨S1088000, .i32⟩
  | 108 => ⟨S1088000, .i1⟩
  | 109 => ⟨S_, .i32⟩
  | 110 => ⟨S1088000, .i32⟩
  | 111 => ⟨S1088000, .i32⟩
  | 112 => ⟨S1088000, .i32⟩
  | 113 => ⟨S1088000x1, .i32⟩
  | 114 => ⟨S1088000x64, .f32⟩
  | 115 => ⟨S1088000x1, .f32⟩
  | 116 => ⟨S1088000x64, .f32⟩
  | 117 => ⟨S1088000x64, .f32⟩
  | 118 => ⟨S_, .f32⟩
  | 119 => ⟨S64000x64, .f32⟩
  | 120 => ⟨S1088000x1, .i32⟩
  | 121 => ⟨S64000x64, .f32⟩
  | 122 => ⟨S1x64, .f32⟩
  | 123 => ⟨S64000x64, .f32⟩
  | 124 => ⟨S64000x64, .f32⟩
  | 125 => ⟨S64000x64, .f32⟩
  | 126 => ⟨S64x64000, .f32⟩
  | 127 => ⟨S64x1000, .f32⟩
  | _ => ⟨S64000x32, .f32⟩

abbrev hbmTy0_1 (i : Nat) : BufTy := match i % 128 with
  | 0 => ⟨S1x1000, .f32⟩
  | 1 => ⟨S64x1000, .f32⟩
  | 2 => ⟨S64x1000, .f32⟩
  | 3 => ⟨S_, .f32⟩
  | 4 => ⟨S64x1000, .f32⟩
  | 5 => ⟨S64x1000, .f32⟩
  | 6 => ⟨S64x1, .f32⟩
  | 7 => ⟨S1x1, .f32⟩
  | 8 => ⟨S64x1, .f32⟩
  | 9 => ⟨S64x1, .f32⟩
  | _ => ⟨S64000x32, .f32⟩

abbrev hbmTy (i : Nat) : BufTy := match i / 128 with
  | 0 => hbmTy0_0 i
  | 1 => hbmTy0_1 i
  | _ => ⟨S64000x32, .f32⟩

abbrev bufTy : (tb : Table) → Fin (tcTables nBuf tb) → BufTy
  | .hbm, ⟨i, _⟩ => hbmTy i
  | _, _ => ⟨S64000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call2_cst : Ref sig .tc := ⟨.hbm, 131, rfl⟩
abbrev main_call2_v0 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩

abbrev nD : Nat := 1
abbrev τ : Topo := Topo.v7x

variable {F : FTy → Type} [FloatOps F]

class Facts₀ : Prop where
  slices_S2x1024000_S1x1024000_0_0 : S2x1024000.Slices ![0, 0] S1x1024000
  shapeCasts_S1x1024000_S1024000 : S1x1024000.ShapeCasts S1024000
  concatenates_S1024000_S64000_S1088000_d0 : Shape.Concatenates [S1024000, S64000] S1088000 0
  slices_S2x1024000_S1x1024000_1_0 : S2x1024000.Slices ![1, 0] S1x1024000
  bcast_S_S1088000 : S_.BroadcastsInDim S1088000 (![] : Fin 0 → Fin S1088000.rank)
  bcast_S_S64000 : S_.BroadcastsInDim S64000 (![] : Fin 0 → Fin S64000.rank)
  bcast_S1088000_S1088000x1_0 : S1088000.BroadcastsInDim S1088000x1 (![0] : Fin 1 → Fin S1088000x1.rank)
  bcast_S1088000x1_S1088000x64_0_1 : S1088000x1.BroadcastsInDim S1088000x64 (![0, 1] : Fin 2 → Fin S1088000x64.rank)
  bcast_S_S64000x64 : S_.BroadcastsInDim S64000x64 (![] : Fin 0 → Fin S64000x64.rank)
  bcast_S64_S1x64_1 : S64.BroadcastsInDim S1x64 (![1] : Fin 1 → Fin S1x64.rank)
  bcast_S1x64_S64000x64_0_1 : S1x64.BroadcastsInDim S64000x64 (![0, 1] : Fin 2 → Fin S64000x64.rank)
  shapeCasts_S64000x64_S64x64000 : S64000x64.ShapeCasts S64x64000
  bcast_S1000_S1x1000_1 : S1000.BroadcastsInDim S1x1000 (![1] : Fin 1 → Fin S1x1000.rank)
  bcast_S1x1000_S64x1000_0_1 : S1x1000.BroadcastsInDim S64x1000 (![0, 1] : Fin 2 → Fin S64x1000.rank)
  bcast_S_S64x1000 : S_.BroadcastsInDim S64x1000 (![] : Fin 0 → Fin S64x1000.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S64000_S1088000x1_S1088000_n_0_0_1_wf : ScatterDims.WF S64000 S1088000x1 S1088000 [] [0] [0] 1
  gather_S64000_S1088000x1_S1088000_n_0_n_n_0_1_1_wf : GatherDims.WF S64000 S1088000x1 S1088000 [] [0] [] [0] [] 1 ![1]
  dot_S64000x32_S32x64_S64000x64_1_0_0_1_n_n_wf : DotDims.WF S64000x32 S32x64 S64000x64 [1] [0] [0] [1] [] []
  gather_S64000x64_S1088000x1_S1088000x64_1_0_n_n_0_1_164_wf : GatherDims.WF S64000x64 S1088000x1 S1088000x64 [1] [0] [] [0] [] 1 ![1, 64]
  scatter_S64000x64_S1088000x1_S1088000x64_1_0_0_1_wf : ScatterDims.WF S64000x64 S1088000x1 S1088000x64 [1] [0] [0] 1
  dot_S64000x64_S64x64_S64000x64_1_0_0_1_n_n_wf : DotDims.WF S64000x64 S64x64 S64000x64 [1] [0] [0] [1] [] []
  dot_S64x64000_S64000x1000_S64x1000_1_0_0_1_n_n_wf : DotDims.WF S64x64000 S64000x1000 S64x1000 [1] [0] [0] [1] [] []
  dot_S64x1000_S1000x1_S64x1_1_0_0_1_n_n_wf : DotDims.WF S64x1000 S1000x1 S64x1 [1] [0] [0] [1] [] []

variable [Facts₀]

def scatter_S64000_S1088000x1_S1088000_n_0_0_1 : ScatterDims S64000 S1088000x1 S1088000 where
  updateWindowDims := []
  insertedWindowDims := [0]
  scatterDimsToOperandDims := [0]
  indexVectorDim := 1
  wf := scatter_S64000_S1088000x1_S1088000_n_0_0_1_wf
def gather_S64000_S1088000x1_S1088000_n_0_n_n_0_1_1 : GatherDims S64000 S1088000x1 S1088000 where
  offsetDims := []
  collapsedSliceDims := [0]
  operandBatchingDims := []
  startIndicesBatchingDims := []
  startIndexMap := [0]
  indexVectorDim := 1
  sliceSizes := ![1]
  wf := gather_S64000_S1088000x1_S1088000_n_0_n_n_0_1_1_wf
def dot_S64000x32_S32x64_S64000x64_1_0_0_1_n_n : DotDims S64000x32 S32x64 S64000x64 where
  lhsContracting := [1]
  rhsContracting := [0]
  lhsNonContracting := [0]
  rhsNonContracting := [1]
  lhsBatch := []
  rhsBatch := []
  wf := dot_S64000x32_S32x64_S64000x64_1_0_0_1_n_n_wf
def gather_S64000x64_S1088000x1_S1088000x64_1_0_n_n_0_1_164 : GatherDims S64000x64 S1088000x1 S1088000x64 where
  offsetDims := [1]
  collapsedSliceDims := [0]
  operandBatchingDims := []
  startIndicesBatchingDims := []
  startIndexMap := [0]
  indexVectorDim := 1
  sliceSizes := ![1, 64]
  wf := gather_S64000x64_S1088000x1_S1088000x64_1_0_n_n_0_1_164_wf
def scatter_S64000x64_S1088000x1_S1088000x64_1_0_0_1 : ScatterDims S64000x64 S1088000x1 S1088000x64 where
  updateWindowDims := [1]
  insertedWindowDims := [0]
  scatterDimsToOperandDims := [0]
  indexVectorDim := 1
  wf := scatter_S64000x64_S1088000x1_S1088000x64_1_0_0_1_wf
def dot_S64000x64_S64x64_S64000x64_1_0_0_1_n_n : DotDims S64000x64 S64x64 S64000x64 where
  lhsContracting := [1]
  rhsContracting := [0]
  lhsNonContracting := [0]
  rhsNonContracting := [1]
  lhsBatch := []
  rhsBatch := []
  wf := dot_S64000x64_S64x64_S64000x64_1_0_0_1_n_n_wf
def dot_S64x64000_S64000x1000_S64x1000_1_0_0_1_n_n : DotDims S64x64000 S64000x1000 S64x1000 where
  lhsContracting := [1]
  rhsContracting := [0]
  lhsNonContracting := [0]
  rhsNonContracting := [1]
  lhsBatch := []
  rhsBatch := []
  wf := dot_S64x64000_S64000x1000_S64x1000_1_0_0_1_n_n_wf
def dot_S64x1000_S1000x1_S64x1_1_0_0_1_n_n : DotDims S64x1000 S1000x1 S64x1 where
  lhsContracting := [1]
  rhsContracting := [0]
  lhsNonContracting := [0]
  rhsNonContracting := [1]
  lhsBatch := []
  rhsBatch := []
  wf := dot_S64x1000_S1000x1_S64x1_1_0_0_1_n_n_wf

class Facts : Prop extends Facts₀ where

variable [Facts]
-- ==== Proof.SumBlocks.lean ====
/- A sum over a long index range, taken block by block.

   The dense layer contracts over 64000 columns; the kernel takes them in 20 consecutive
   blocks of 3200 and adds the partial sums one after the other. In any commutative additive
   monoid — the extended reals among them, with no appeal to finiteness of the terms — the
   sum over all columns equals the sum over the blocks of the sum inside each block. Column
   `b * t + k` is member `k` of block `t`. -/
import Mathlib.Algebra.BigOperators.Fin
import Mathlib.Algebra.BigOperators.Group.Finset.Basic

namespace Cert.SumBlocks

open Finset

variable {M : Type*} [AddCommMonoid M]

/-- Over the first `a * b` naturals: the sum is the sum over `a` blocks of the `b` terms of each. -/
theorem sum_range_mul (g : ℕ → M) (a b : ℕ) :
    ∑ i ∈ range (a * b), g i = ∑ t ∈ range a, ∑ k ∈ range b, g (b * t + k) := by
  induction a with
  | zero => simp
  | succ a ih =>
    rw [Nat.succ_mul, sum_range_add, ih, sum_range_succ]
    congr 1
    refine sum_congr rfl fun k _ => ?_
    rw [Nat.mul_comm]

/-- The same over a finite index type of `n = a * b` members: member `k` of block `t` is the index
    `b * t + k`, written modulo `n` so that it is an index for every `t` and `k` (inside the
    range, `t < a` and `k < b`, the reduction changes nothing). -/
theorem sum_fin_blocks {n : ℕ} (a b : ℕ) (h : n = a * b) (hn : 0 < n) (f : Fin n → M) :
    ∑ k : Fin n, f k
      = ∑ t ∈ range a, ∑ k : Fin b, f ⟨(b * t + k.val) % n, Nat.mod_lt _ hn⟩ := by
  subst h
  have e1 : ∑ k : Fin (a * b), f k = ∑ k : Fin (a * b), f ⟨k.val % (a * b), Nat.mod_lt _ hn⟩ :=
    sum_congr rfl fun k _ => congrArg f (Fin.ext (Nat.mod_eq_of_lt k.isLt).symm)
  rw [e1, ← Finset.sum_range (fun i => f ⟨i % (a * b), Nat.mod_lt _ hn⟩), sum_range_mul]
  refine sum_congr rfl fun t _ => ?_
  exact Finset.sum_range (fun k => f ⟨(b * t + k) % (a * b), Nat.mod_lt _ hn⟩)

end Cert.SumBlocks
-- ==== Proof.Spec.lean ====
/- What the dense head computes, index by index, on the extended reals.

   From a feature array `H` [64, 64000] (one row per graph), weights `W` [64000, 1000] and
   `W2` [1000, 1] and biases `b1` [1000], `b2` [1]:

     hidden (r, n) = ∑ₖ H (r, k) · W (k, n)                       k over all 64000 columns
     out (r, 0)    = (∑ₙ max (hidden (r, n) + b1 n) 0 · W2 (n, 0)) + b2 0

   The 64000 columns also come as 20 consecutive blocks of 3200: `part t` is the partial sum
   of block `t`, and `hidden` is the sum of the twenty partial sums — a regrouping of one
   finite sum, valid for all extended reals, infinite entries included. -/
import Idealize.ShloMosaic.PureOps.Ideal
import Idealize.ShloMosaic.Lib.ValueIdx
import proofs.«181487_j26560077758928_1_alg».proof.Proof.SumBlocks

noncomputable section

namespace Cert.Dense

open Idealize.ShloMosaic Idealize.ShloMosaic.ValueIdx

/-- Column `k` of block `t`: `3200 · t + k` (reduced modulo 64000, which changes nothing for `t < 20`). -/
abbrev col (t : ℕ) (k : Fin 3200) : Fin 64000 := ⟨(3200 * t + k.val) % 64000, Nat.mod_lt _ (by decide)⟩

/-- Block `t`'s partial sum of the first contraction. -/
def part (H : FVec Ideal ⟨2, ![64, 64000]⟩ .f32) (W : FVec Ideal ⟨2, ![64000, 1000]⟩ .f32) (t : ℕ) :
    FVec Ideal ⟨2, ![64, 1000]⟩ .f32 :=
  fun j => ∑ k : Fin 3200, H (ix2 (j 0) (col t k)) * W (ix2 (col t k) (j 1))

/-- The first contraction, over all columns at once. -/
def hidden (H : FVec Ideal ⟨2, ![64, 64000]⟩ .f32) (W : FVec Ideal ⟨2, ![64000, 1000]⟩ .f32) :
    FVec Ideal ⟨2, ![64, 1000]⟩ .f32 :=
  fun j => ∑ k : Fin 64000, H (ix2 (j 0) k) * W (ix2 k (j 1))

/-- The contraction over all columns is the sum of the twenty blocks' partial sums. -/
theorem hidden_eq_parts (H : FVec Ideal ⟨2, ![64, 64000]⟩ .f32) (W : FVec Ideal ⟨2, ![64000, 1000]⟩ .f32)
    (j : (⟨2, ![64, 1000]⟩ : Shape).Idx) :
    hidden H W j = ∑ t ∈ Finset.range 20, part H W t j :=
  Cert.SumBlocks.sum_fin_blocks 20 3200 (by norm_num) (by norm_num) (fun k => H (ix2 (j 0) k) * W (ix2 k (j 1)))

/-- From the first contraction's result to the output: add the bias, take the maximum with zero,
    contract with `W2`, add the second bias. -/
def tail (acc : FVec Ideal ⟨2, ![64, 1000]⟩ .f32) (b1 : FVec Ideal ⟨1, ![1000]⟩ .f32)
    (W2 : FVec Ideal ⟨2, ![1000, 1]⟩ .f32) (b2 : FVec Ideal ⟨1, ![1]⟩ .f32) : FVec Ideal ⟨2, ![64, 1]⟩ .f32 :=
  fun i => (∑ n : Fin 1000, max (acc (ix2 (i 0) n) + b1 (ix1 n)) (Ideal.ofBits .f32 0x00000000#32) * W2 (ix2 n (i 1)))
    + b2 (ix1 0)

/-- The dense head. -/
def out (H : FVec Ideal ⟨2, ![64, 64000]⟩ .f32) (W : FVec Ideal ⟨2, ![64000, 1000]⟩ .f32)
    (b1 : FVec Ideal ⟨1, ![1000]⟩ .f32) (W2 : FVec Ideal ⟨2, ![1000, 1]⟩ .f32) (b2 : FVec Ideal ⟨1, ![1]⟩ .f32) :
    FVec Ideal ⟨2, ![64, 1]⟩ .f32 :=
  tail (hidden H W) b1 W2 b2

end Cert.Dense

end
-- ==== Proof.RefSide.lean ====
/- The reference's result is the dense head of its own feature array.

   After the operations it shares with the kernel's host side, the reference contracts the
   [64, 64000] feature array with the first weights in one product, adds the bias (repeated
   down the rows), takes the maximum with zero, contracts with the second weights and adds the
   second bias. Read entry by entry on the extended reals that is the specification's `out`,
   with the feature array left as the value of the shared operations. -/
import proofs.«181487_j26560077758928_1_alg».proof.Proof.RefReadP
import proofs.«181487_j26560077758928_1_alg».proof.Proof.Spec

noncomputable section

namespace Cert.ReferenceIdeal.RefSide

open Cert.ReferenceIdeal Cert.ReferenceIdeal.Gen Cert.ReferenceIdeal.ReadP
open Idealize.ShloMosaic Idealize.ShloMosaic.ValueIdx

/-- The reference's last stage, as a function of the arguments, is `out` of its feature stage. -/
theorem result_eq (x0 : (⟨S64000x32, .f32⟩ : BufTy).Contents (Elt Ideal)) (x1 : (⟨S2x1024000, .i32⟩ : BufTy).Contents (Elt Ideal))
    (x3 : (⟨S32x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64000x1000, .f32⟩ : BufTy).Contents (Elt Ideal)) (x8 : (⟨S1000, .f32⟩ : BufTy).Contents (Elt Ideal))
    (x9 : (⟨S1000x1, .f32⟩ : BufTy).Contents (Elt Ideal)) (x10 : (⟨S1, .f32⟩ : BufTy).Contents (Elt Ideal)) :
    val_main_v98 (F := Ideal) x0 x1 x3 x4 x5 x6 x7 x8 x9 x10
      = Cert.Dense.out (val_main_v89 (F := Ideal) x0 x1 x3 x4 x5 x6) x7 x8 x9 x10 := by
  funext i
  obtain ⟨r, z, rfl⟩ : ∃ (r : Fin 64) (z : Fin 1), i = ix2 r z := ⟨i 0, i 1, eq_ix2 i⟩
  rw [val_main_v98_apply, val_main_v95_apply, val_main_v97_apply, val_main_v96_apply]
  refine congrArg₂ (· + ·) (Finset.sum_congr rfl fun k _ => ?_) ?_
  · have e1 : lidx_main_v95 (ix2 r z) k = ix2 r k :=
      funext fun a => Fin.ext (by match a with | ⟨0, _⟩ => rfl | ⟨1, _⟩ => rfl)
    have e2 : ridx_main_v95 (ix2 r z) k = ix2 k z :=
      funext fun a => Fin.ext (by match a with | ⟨0, _⟩ => rfl | ⟨1, _⟩ => rfl)
    rw [e1, e2, val_main_v94_apply, val_main_v93_apply, val_main_v90_apply, val_main_v92_apply, val_main_v91_apply,
      val_main_call2_v0_apply, val_main_call2_cst_apply]
    have e3 : idx_main_v91 (idx_main_v92 (ix2 r k)) = ix1 k :=
      funext fun a => Fin.ext (by match a with | ⟨0, _⟩ => rfl)
    rw [e3]
    refine congrArg₂ (· * ·) (congrArg₂ max (congrArg₂ (· + ·) (Finset.sum_congr rfl fun q _ => ?_) rfl) rfl) rfl
    have e4 : lidx_main_v90 (ix2 r k) q = ix2 r q :=
      funext fun a => Fin.ext (by match a with | ⟨0, _⟩ => rfl | ⟨1, _⟩ => rfl)
    have e5 : ridx_main_v90 (ix2 r k) q = ix2 q k :=
      funext fun a => Fin.ext (by match a with | ⟨0, _⟩ => rfl | ⟨1, _⟩ => rfl)
    rw [e4, e5]
  · exact congrArg x10 (funext fun a => Fin.ext (by match a with | ⟨0, _⟩ => rfl))

end Cert.ReferenceIdeal.RefSide

end
-- ==== Proof.Cases.lean ====
/- What one grid point leaves behind, case by case, as values.

   The body keeps a [64, 1000] running total in a scratch buffer that survives from one grid
   point to the next. Writing `x0` for the point's [64, 3200] block of features and `x1` for
   its [3200, 1000] block of weights:

     * at the first point the total is set to zero and the block's product added:
         total = (zeros) + x0 · x1                       (`k0_pay2 x0 x1 k0_pay1`);
     * at every later point the block's product is added to what the point before left:
         total = acc + x0 · x1                           (`k0_pay2 x0 x1 acc`);
     * at the last point, after that addition, the output block is formed from the new total,
       the bias row `x2`, the second weights `x3` and the second bias `x4`:
         out = (max (total + x2) 0) · x3 + x4            (`k0_pay3 total x2 x3 x4`).

   Each statement holds for any float instance: it only says which stored value is read back
   where. Every load and store covers its whole buffer, so reading a buffer back returns the
   value last stored in it. -/
import proofs.«181487_j26560077758928_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- Every access of the body starts at offset (0, 0) of its buffer. -/
theorem hz : (![0, 0] : Fin 2 → Nat) = fun _ => 0 := funext fun a => by fin_cases a <;> rfl

/-- A middle point (neither first nor last): the running total becomes `acc + x0 · x1`. -/
theorem total_mid (c : Dev nD) (i : grid0.Coords)
    (a1 : Memref sig .tc .vmem S64x3200 .f32) (h1 : a1.IsWhole) (a2 : Memref sig .tc .vmem S3200x1000 .f32) (h2 : a2.IsWhole)
    (a3 : Memref sig .tc .vmem S1x1000 .f32) (h3 : a3.IsWhole) (a4 : Memref sig .tc .vmem S1000x1 .f32) (h4 : a4.IsWhole)
    (a5 : Memref sig .tc .vmem S1x1 .f32) (h5 : a5.IsWhole) (a6 : Memref sig .tc .vmem S64x1 .f32) (h6 : a6.IsWhole)
    (a7 : Memref sig .tc .vmem S64x1000 .f32) (h7 : a7.IsWhole)
    (hc0 : ¬cond0_0 i) (hc1 : ¬cond0_1 i) (x0 : Vec F S64x3200 .f32) (x1 : Vec F S3200x1000 .f32) (x2 : Vec F S1x1000 .f32) (x3 : Vec F S1000x1 .f32)
    (x4 : Vec F S1x1 .f32) (acc : Vec F S64x1000 .f32) :
    sout0_B_0 c i a1 h1 a2 h2 a3 h3 a4 h4 a5 h5 a6 h6 a7 h7 hc0 hc1 x0 x1 x2 x3 x4 acc = k0_pay2 x0 x1 acc := by
  unfold sout0_B_0
  rw [View.read_writes_eq_canon _ _ _ (scover0_B_0 c i a1 h1 a2 h2 a3 h3 a4 h4 a5 h5 a6 h6 a7 h7 hc0 hc1 x0 x1 x2 x3 x4 acc)]
  unfold kernelRun0_B
  dsimp only
  rw [View.canon_unit_zero hz]
  simp only [View.readAt_eq_ld, h1.read_unread, h2.read_unread, h3.read_unread, h4.read_unread, h5.read_unread, h7.read_unread,
    View.ld_unit_zero (S := S64x3200) hz, View.ld_unit_zero (S := S3200x1000) hz, View.ld_unit_zero (S := S64x1000) hz,
    View.ld_unit_zero (S := S1x1000) hz, View.ld_unit_zero (S := S1000x1) hz, View.ld_unit_zero (S := S1x1) hz]

/-- The last point: the running total becomes `acc + x0 · x1`, as at a middle point. -/
theorem total_last (c : Dev nD) (i : grid0.Coords)
    (a1 : Memref sig .tc .vmem S64x3200 .f32) (h1 : a1.IsWhole) (a2 : Memref sig .tc .vmem S3200x1000 .f32) (h2 : a2.IsWhole)
    (a3 : Memref sig .tc .vmem S1x1000 .f32) (h3 : a3.IsWhole) (a4 : Memref sig .tc .vmem S1000x1 .f32) (h4 : a4.IsWhole)
    (a5 : Memref sig .tc .vmem S1x1 .f32) (h5 : a5.IsWhole) (a6 : Memref sig .tc .vmem S64x1 .f32) (h6 : a6.IsWhole)
    (a7 : Memref sig .tc .vmem S64x1000 .f32) (h7 : a7.IsWhole)
    (hc0 : ¬cond0_0 i) (hc1 : cond0_1 i) (x0 : Vec F S64x3200 .f32) (x1 : Vec F S3200x1000 .f32) (x2 : Vec F S1x1000 .f32) (x3 : Vec F S1000x1 .f32)
    (x4 : Vec F S1x1 .f32) (acc : Vec F S64x1000 .f32) :
    sout0_C_0 c i a1 h1 a2 h2 a3 h3 a4 h4 a5 h5 a6 h6 a7 h7 hc0 hc1 x0 x1 x2 x3 x4 acc = k0_pay2 x0 x1 acc := by
  unfold sout0_C_0
  rw [View.read_writes_eq_canon _ _ _ (scover0_C_0 c i a1 h1 a2 h2 a3 h3 a4 h4 a5 h5 a6 h6 a7 h7 hc0 hc1 x0 x1 x2 x3 x4 acc)]
  unfold kernelRun0_C
  dsimp only
  sl_unfold_words
  rw [View.canon_unit_zero hz]
  simp only [View.readAt_eq_ld, h1.read_unread, h2.read_unread, h3.read_unread, h4.read_unread, h5.read_unread, h7.read_unread,
    View.ld_unit_zero (S := S64x3200) hz, View.ld_unit_zero (S := S3200x1000) hz, View.ld_unit_zero (S := S64x1000) hz,
    View.ld_unit_zero (S := S1x1000) hz, View.ld_unit_zero (S := S1000x1) hz, View.ld_unit_zero (S := S1x1) hz]

/-- The last point's output block: formed from the total just stored, `acc + x0 · x1`. -/
theorem out_last (c : Dev nD) (i : grid0.Coords)
    (a1 : Memref sig .tc .vmem S64x3200 .f32) (h1 : a1.IsWhole) (a2 : Memref sig .tc .vmem S3200x1000 .f32) (h2 : a2.IsWhole)
    (a3 : Memref sig .tc .vmem S1x1000 .f32) (h3 : a3.IsWhole) (a4 : Memref sig .tc .vmem S1000x1 .f32) (h4 : a4.IsWhole)
    (a5 : Memref sig .tc .vmem S1x1 .f32) (h5 : a5.IsWhole) (a6 : Memref sig .tc .vmem S64x1 .f32) (h6 : a6.IsWhole)
    (a7 : Memref sig .tc .vmem S64x1000 .f32) (h7 : a7.IsWhole)
    (hc0 : ¬cond0_0 i) (hc1 : cond0_1 i) (x0 : Vec F S64x3200 .f32) (x1 : Vec F S3200x1000 .f32) (x2 : Vec F S1x1000 .f32) (x3 : Vec F S1000x1 .f32)
    (x4 : Vec F S1x1 .f32) (acc : Vec F S64x1000 .f32) :
    out0_C_5 c i a1 h1 a2 h2 a3 h3 a4 h4 a5 h5 a6 h6 a7 h7 hc0 hc1 x0 x1 x2 x3 x4 acc
      = k0_pay3 (k0_pay2 x0 x1 acc) x2 x3 x4 := by
  unfold out0_C_5
  rw [View.read_writes_eq_canon _ _ _ (cover0_C_5 c i a1 h1 a2 h2 a3 h3 a4 h4 a5 h5 a6 h6 a7 h7 hc0 hc1 x0 x1 x2 x3 x4 acc)]
  unfold kernelRun0_C
  dsimp only
  sl_unfold_words
  rw [View.canon_unit_zero hz, View.readCov_unit_zero (S := S64x1000) _ hz]
  simp only [View.readAt_eq_ld, h1.read_unread, h2.read_unread, h3.read_unread, h4.read_unread, h5.read_unread, h7.read_unread,
    View.ld_unit_zero (S := S64x3200) hz, View.ld_unit_zero (S := S3200x1000) hz, View.ld_unit_zero (S := S64x1000) hz,
    View.ld_unit_zero (S := S1x1000) hz, View.ld_unit_zero (S := S1000x1) hz, View.ld_unit_zero (S := S1x1) hz]

/-- The first point: the running total is the block's product added to the zero block. -/
theorem total_first (c : Dev nD) (i : grid0.Coords)
    (a1 : Memref sig .tc .vmem S64x3200 .f32) (h1 : a1.IsWhole) (a2 : Memref sig .tc .vmem S3200x1000 .f32) (h2 : a2.IsWhole)
    (a3 : Memref sig .tc .vmem S1x1000 .f32) (h3 : a3.IsWhole) (a4 : Memref sig .tc .vmem S1000x1 .f32) (h4 : a4.IsWhole)
    (a5 : Memref sig .tc .vmem S1x1 .f32) (h5 : a5.IsWhole) (a6 : Memref sig .tc .vmem S64x1 .f32) (h6 : a6.IsWhole)
    (a7 : Memref sig .tc .vmem S64x1000 .f32) (h7 : a7.IsWhole)
    (hc0 : cond0_0 i) (hc1 : ¬cond0_1 i) (x0 : Vec F S64x3200 .f32) (x1 : Vec F S3200x1000 .f32) (x2 : Vec F S1x1000 .f32) (x3 : Vec F S1000x1 .f32)
    (x4 : Vec F S1x1 .f32) :
    sout0_A_0 c i a1 h1 a2 h2 a3 h3 a4 h4 a5 h5 a6 h6 a7 h7 hc0 hc1 x0 x1 x2 x3 x4 = k0_pay2 x0 x1 (k0_pay1 (F := F)) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S64x1000) hz, View.readCov_unit_zero (S := S64x1000) _ hz]
  simp only [View.readAt_eq_ld, h1.read_unread, h2.read_unread, h3.read_unread, h4.read_unread, h5.read_unread, h7.read_unread,
    View.ld_unit_zero (S := S64x3200) hz, View.ld_unit_zero (S := S3200x1000) hz, View.ld_unit_zero (S := S64x1000) hz,
    View.ld_unit_zero (S := S1x1000) hz, View.ld_unit_zero (S := S1000x1) hz, View.ld_unit_zero (S := S1x1) hz]

end Cert.KernelIdeal.Cases

end
-- ==== Proof.Steps.lean ====
/- What grid point `t` leaves, in terms of the blocks it reads.

   Which of the three cases a point falls under is decided by its position: the first point
   (position 0) resets the running total, the last (position 19) also forms the output, the
   others only accumulate. With `x0`, `x1` the point's feature and weight blocks, `b`, `w`, `b'`
   the bias row, second weights and second bias it reads, and `acc` the total the point before
   left:

     first point :  total = (zeros) + x0 · x1
     later points:  total = acc + x0 · x1
     last point  :  out   = (max ((acc + x0 · x1) + b) 0) · w + b'

   These hold for any float instance. -/
import proofs.«181487_j26560077758928_1_alg».proof.Proof.Gen.KernelIdeal.Value
import proofs.«181487_j26560077758928_1_alg».proof.Proof.Cases

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- The running total the point before `t` left. -/
abbrev prev (c : Dev nD) (t : Fin cfg0.N) : Vec F S64x1000 .f32 :=
  (outsAt0 m c (t.val - 1) (Nat.lt_of_le_of_lt (Nat.sub_le _ _) t.isLt)).2

theorem total_first (c : Dev nD) (t : Fin cfg0.N) (h0 : t.val % 20 = 0) (h1 : ¬t.val % 20 = 19) :
    (outsAt0 m c t.val t.isLt).2 = k0_pay2 (iblk m c 0 t) (iblk m c 1 t) (k0_pay1 (F := F)) := by
  have e := Cert.KernelIdeal.Cases.total_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      ((hcond0_0 t).mpr h0) (fun h => h1 ((hcond0_1 t).mp h)) (iblk m c 0 t) (iblk m c 1 t) (iblk m c 2 t) (iblk m c 3 t) (iblk m c 4 t)
  simp only [outsAt0_A m c t h0 h1]
  exact e

theorem total_mid (c : Dev nD) (t : Fin cfg0.N) (h0 : ¬t.val % 20 = 0) (h1 : ¬t.val % 20 = 19) :
    (outsAt0 m c t.val t.isLt).2 = k0_pay2 (iblk m c 0 t) (iblk m c 1 t) (prev m c t) := by
  have e := Cert.KernelIdeal.Cases.total_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun h => h0 ((hcond0_0 t).mp h)) (fun h => h1 ((hcond0_1 t).mp h)) (iblk m c 0 t) (iblk m c 1 t) (iblk m c 2 t) (iblk m c 3 t) (iblk m c 4 t) (prev m c t)
  simp only [outsAt0_B m c t h0 h1]
  exact e

theorem total_last (c : Dev nD) (t : Fin cfg0.N) (h0 : ¬t.val % 20 = 0) (h1 : t.val % 20 = 19) :
    (outsAt0 m c t.val t.isLt).2 = k0_pay2 (iblk m c 0 t) (iblk m c 1 t) (prev m c t) := by
  have e := Cert.KernelIdeal.Cases.total_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun h => h0 ((hcond0_0 t).mp h)) ((hcond0_1 t).mpr h1) (iblk m c 0 t) (iblk m c 1 t) (iblk m c 2 t) (iblk m c 3 t) (iblk m c 4 t) (prev m c t)
  simp only [outsAt0_C m c t h0 h1]
  exact e

theorem out_last (c : Dev nD) (t : Fin cfg0.N) (h0 : ¬t.val % 20 = 0) (h1 : t.val % 20 = 19) :
    (outsAt0 m c t.val t.isLt).1
      = k0_pay3 (k0_pay2 (iblk m c 0 t) (iblk m c 1 t) (prev m c t)) (iblk m c 2 t) (iblk m c 3 t) (iblk m c 4 t) := by
  have e := Cert.KernelIdeal.Cases.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun h => h0 ((hcond0_0 t).mp h)) ((hcond0_1 t).mpr h1) (iblk m c 0 t) (iblk m c 1 t) (iblk m c 2 t) (iblk m c 3 t) (iblk m c 4 t) (prev m c t)
  simp only [outsAt0_C m c t h0 h1]
  exact e

end Cert.KernelIdeal.Steps

end
-- ==== Proof.Pay.lean ====
/- The body's three stored values, read entry by entry on the extended reals.

   On the extended reals a change of float format is the identity and a matrix product into a
   zero accumulator is the plain sum of products over the contracted axis. So, at row `r`:

     * the reset value is 0 everywhere;
     * the accumulation step at column `n` is   acc (r, n) + ∑ₖ x0 (r, k) · x1 (k, n),   k over the
       3200 columns of the point's block;
     * the output value is   (∑ₙ max (total (r, n) + b (0, n)) 0 · w (n, 0)) + b' (0, 0),   n over the
       1000 hidden units: the bias row is repeated down the 64 rows, the last bias everywhere.

   For each product, the operand entries that meet at output entry (r, c) and contraction index
   k are (r, k) on the left and (k, c) on the right. -/
import proofs.«181487_j26560077758928_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## Which operand entries a product's output entry reads -/

theorem d1_l0 (i : S64x1000.Idx) (q : dot_S64x3200_S3200x1000_S64x1000_1_0_0_1_n_n.contr.Idx) : (dot_S64x3200_S3200x1000_S64x1000_1_0_0_1_n_n.lhsIdx i q 0).val = (i 0).val := by
  unfold DotDims.lhsIdx
  rw [dif_neg (show ¬(0 : Fin S64x3200.rank) ∈ dot_S64x3200_S3200x1000_S64x1000_1_0_0_1_n_n.lhsBatch by decide),
    dif_pos (show (0 : Fin S64x3200.rank) ∈ dot_S64x3200_S3200x1000_S64x1000_1_0_0_1_n_n.lhsNonContracting by decide)]
  rfl
theorem d1_l1 (i : S64x1000.Idx) (q : dot_S64x3200_S3200x1000_S64x1000_1_0_0_1_n_n.contr.Idx) : (dot_S64x3200_S3200x1000_S64x1000_1_0_0_1_n_n.lhsIdx i q 1).val = (q ⟨0, by decide⟩).val :=
  dot_S64x3200_S3200x1000_S64x1000_1_0_0_1_n_n.lhsIdx_val_of_single rfl i q
theorem d1_r0 (i : S64x1000.Idx) (q : dot_S64x3200_S3200x1000_S64x1000_1_0_0_1_n_n.contr.Idx) : (dot_S64x3200_S3200x1000_S64x1000_1_0_0_1_n_n.rhsIdx i q 0).val = (q ⟨0, by decide⟩).val :=
  dot_S64x3200_S3200x1000_S64x1000_1_0_0_1_n_n.rhsIdx_val_of_single rfl i q
theorem d1_r1 (i : S64x1000.Idx) (q : dot_S64x3200_S3200x1000_S64x1000_1_0_0_1_n_n.contr.Idx) : (dot_S64x3200_S3200x1000_S64x1000_1_0_0_1_n_n.rhsIdx i q 1).val = (i 1).val := by
  unfold DotDims.rhsIdx
  rw [dif_neg (show ¬(1 : Fin S3200x1000.rank) ∈ dot_S64x3200_S3200x1000_S64x1000_1_0_0_1_n_n.rhsBatch by decide),
    dif_pos (show (1 : Fin S3200x1000.rank) ∈ dot_S64x3200_S3200x1000_S64x1000_1_0_0_1_n_n.rhsNonContracting by decide)]
  rfl

theorem d2_l0 (i : S64x1.Idx) (q : dot_S64x1000_S1000x1_S64x1_1_0_0_1_n_n.contr.Idx) : (dot_S64x1000_S1000x1_S64x1_1_0_0_1_n_n.lhsIdx i q 0).val = (i 0).val := by
  unfold DotDims.lhsIdx
  rw [dif_neg (show ¬(0 : Fin S64x1000.rank) ∈ dot_S64x1000_S1000x1_S64x1_1_0_0_1_n_n.lhsBatch by decide),
    dif_pos (show (0 : Fin S64x1000.rank) ∈ dot_S64x1000_S1000x1_S64x1_1_0_0_1_n_n.lhsNonContracting by decide)]
  rfl
theorem d2_l1 (i : S64x1.Idx) (q : dot_S64x1000_S1000x1_S64x1_1_0_0_1_n_n.contr.Idx) : (dot_S64x1000_S1000x1_S64x1_1_0_0_1_n_n.lhsIdx i q 1).val = (q ⟨0, by decide⟩).val :=
  dot_S64x1000_S1000x1_S64x1_1_0_0_1_n_n.lhsIdx_val_of_single rfl i q
theorem d2_r0 (i : S64x1.Idx) (q : dot_S64x1000_S1000x1_S64x1_1_0_0_1_n_n.contr.Idx) : (dot_S64x1000_S1000x1_S64x1_1_0_0_1_n_n.rhsIdx i q 0).val = (q ⟨0, by decide⟩).val :=
  dot_S64x1000_S1000x1_S64x1_1_0_0_1_n_n.rhsIdx_val_of_single rfl i q
theorem d2_r1 (i : S64x1.Idx) (q : dot_S64x1000_S1000x1_S64x1_1_0_0_1_n_n.contr.Idx) : (dot_S64x1000_S1000x1_S64x1_1_0_0_1_n_n.rhsIdx i q 1).val = (i 1).val := by
  unfold DotDims.rhsIdx
  rw [dif_neg (show ¬(1 : Fin S1000x1.rank) ∈ dot_S64x1000_S1000x1_S64x1_1_0_0_1_n_n.rhsBatch by decide),
    dif_pos (show (1 : Fin S1000x1.rank) ∈ dot_S64x1000_S1000x1_S64x1_1_0_0_1_n_n.rhsNonContracting by decide)]
  rfl

/-! ## The three stored values -/

/-- The reset value: zero at every entry. -/
theorem reset_apply (j : S64x1000.Idx) : k0_pay1 (F := Ideal) j = 0 := by
  unfold k0_pay1
  simp only [shapeCast_self]
  exact Ideal.ofBits_zero_f32

/-- The accumulation step at entry (r, n): what was there plus the block's sum of products. -/
theorem step_apply (x0 : FVec Ideal S64x3200 .f32) (x1 : FVec Ideal S3200x1000 .f32) (acc : FVec Ideal S64x1000 .f32)
    (r : Fin 64) (n : Fin 1000) :
    k0_pay2 (F := Ideal) x0 x1 acc (ix2 r n) = acc (ix2 r n) + ∑ k : Fin 3200, x0 (ix2 r k) * x1 (ix2 k n) := by
  unfold k0_pay2
  simp only [shapeCast_self]
  refine (addf_apply _ _ _).trans ?_
  refine congrArg (acc (ix2 r n) + ·) ?_
  refine (Ideal.matmul_constant_zero_apply dot_S64x3200_S3200x1000_S64x1000_1_0_0_1_n_n none _ _ (ix2 r n)).trans ?_
  rw [← Equiv.sum_comp (contrEquiv1 dot_S64x3200_S3200x1000_S64x1000_1_0_0_1_n_n 3200 rfl rfl).symm]
  refine Finset.sum_congr rfl fun k _ => ?_
  have hk := contrEquiv1_symm_val dot_S64x3200_S3200x1000_S64x1000_1_0_0_1_n_n 3200 rfl rfl k
  have el : dot_S64x3200_S3200x1000_S64x1000_1_0_0_1_n_n.lhsIdx (ix2 r n) ((contrEquiv1 dot_S64x3200_S3200x1000_S64x1000_1_0_0_1_n_n 3200 rfl rfl).symm k) = ix2 r k :=
    funext fun a => Fin.ext (by
      match a with
      | ⟨0, _⟩ => exact d1_l0 _ _
      | ⟨1, _⟩ => exact (d1_l1 _ _).trans hk)
  have er : dot_S64x3200_S3200x1000_S64x1000_1_0_0_1_n_n.rhsIdx (ix2 r n) ((contrEquiv1 dot_S64x3200_S3200x1000_S64x1000_1_0_0_1_n_n 3200 rfl rfl).symm k) = ix2 k n :=
    funext fun a => Fin.ext (by
      match a with
      | ⟨0, _⟩ => exact (d1_r0 _ _).trans hk
      | ⟨1, _⟩ => exact d1_r1 _ _)
  rw [el, er]
  rfl

/-- The output value at entry (r, z): bias, maximum with zero, contraction with the second weights, last bias. -/
theorem out_apply (tot : FVec Ideal S64x1000 .f32) (b : FVec Ideal S1x1000 .f32) (w : FVec Ideal S1000x1 .f32)
    (b' : FVec Ideal S1x1 .f32) (r : Fin 64) (z : Fin 1) :
    k0_pay3 (F := Ideal) tot b w b' (ix2 r z)
      = (∑ n : Fin 1000, max (tot (ix2 r n) + b (ix2 0 n)) (Ideal.ofBits .f32 0x00000000#32) * w (ix2 n z))
        + b' (ix2 0 0) := by
  unfold k0_pay3
  simp only [shapeCast_self]
  refine (addf_apply _ _ _).trans ?_
  have eb : broadcastTo S64x1 b' broadcasts_S1x1_S64x1 (ix2 r z) = b' (ix2 0 0) :=
    broadcastTo_apply b' broadcasts_S1x1_S64x1 (ix2 r z) (ix2 0 0) (fun a => match a with
      | ⟨0, _⟩ => by show (0 : ℕ) = if (1 : Nat) = 1 then 0 else r.val; rw [if_pos rfl]
      | ⟨1, _⟩ => by show (0 : ℕ) = if (1 : Nat) = 1 then 0 else z.val; rw [if_pos rfl])
  refine congrArg₂ (· + ·) ?_ eb
  refine (Ideal.matmul_constant_zero_apply dot_S64x1000_S1000x1_S64x1_1_0_0_1_n_n none _ _ (ix2 r z)).trans ?_
  rw [← Equiv.sum_comp (contrEquiv1 dot_S64x1000_S1000x1_S64x1_1_0_0_1_n_n 1000 rfl rfl).symm]
  refine Finset.sum_congr rfl fun k _ => ?_
  have hk := contrEquiv1_symm_val dot_S64x1000_S1000x1_S64x1_1_0_0_1_n_n 1000 rfl rfl k
  have el : dot_S64x1000_S1000x1_S64x1_1_0_0_1_n_n.lhsIdx (ix2 r z) ((contrEquiv1 dot_S64x1000_S1000x1_S64x1_1_0_0_1_n_n 1000 rfl rfl).symm k) = ix2 r k :=
    funext fun a => Fin.ext (by
      match a with
      | ⟨0, _⟩ => exact d2_l0 _ _
      | ⟨1, _⟩ => exact (d2_l1 _ _).trans hk)
  have er : dot_S64x1000_S1000x1_S64x1_1_0_0_1_n_n.rhsIdx (ix2 r z) ((contrEquiv1 dot_S64x1000_S1000x1_S64x1_1_0_0_1_n_n 1000 rfl rfl).symm k) = ix2 k z :=
    funext fun a => Fin.ext (by
      match a with
      | ⟨0, _⟩ => exact (d2_r0 _ _).trans hk
      | ⟨1, _⟩ => exact d2_r1 _ _)
  rw [el, er]
  have ebk : broadcastTo S64x1000 b broadcasts_S1x1000_S64x1000 (ix2 r k) = b (ix2 0 k) :=
    broadcastTo_apply b broadcasts_S1x1000_S64x1000 (ix2 r k) (ix2 0 k) (fun a => match a with
      | ⟨0, _⟩ => by show (0 : ℕ) = if (1 : Nat) = 1 then 0 else r.val; rw [if_pos rfl]
      | ⟨1, _⟩ => by show k.val = if (1000 : Nat) = 1 then 0 else k.val; rw [if_neg (by decide)])
  exact congrArg₂ (· * ·) (congrArg₂ max (congrArg (tot (ix2 r k) + ·) ebk) rfl) rfl

end Cert.KernelIdeal.Pay

end
-- ==== Proof.Blocks.lean ====
/- Which entries of the arrays each grid point's blocks show.

   The grid has 20 points. At point `t` the feature window shows rows 0 … 63 and columns
   3200·t … 3200·t + 3199 of the [64, 64000] feature array; the weight window shows the same
   3200 rows of the [64000, 1000] weights and all their columns. The bias row, the second
   weights and the second bias are shown whole at every point. Each statement is first made
   for an arbitrary array in the window's place — it is a fact about indices only — and then
   read at the array the region finds. -/
import proofs.«181487_j26560077758928_1_alg».proof.Proof.Gen.KernelIdeal.Frame
import proofs.«181487_j26560077758928_1_alg».proof.Proof.Spec
import Idealize.ShloMosaic.Lib.Pipeline.Value

noncomputable section

open Idealize.ShloMosaic Idealize.ShloMosaic.TcCoe Idealize.SL.Sem

namespace Cert.KernelIdeal.Fold

open Cert.KernelIdeal Cert.KernelIdeal.Gen Idealize.ShloMosaic.ValueIdx

/-! ## The windows' block indices at a point -/

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-! ## A block read through its window, for any array in the window's place -/

/-- Entry (r, k) of point `t`'s feature block is entry (r, 3200·t + k) of the array. -/
theorem read0 (c : Dev nD) (A : Buf (Elt Ideal) ((c : Thread nD τ).loc main_v89)) (t : Fin cfg0.N) (r : Fin 64)
    (k : Fin 3200) :
    (((cfg0.win 0).blk t).view.read (Elt Ideal) A : FVec Ideal S64x3200 .f32) (ix2 r k)
      = (A : FVec Ideal S64x64000 .f32) (ix2 r (Cert.Dense.col t.val k)) := by
  have hi := idx0 t
  have hN : t.val < 20 := lt_of_lt_of_eq t.isLt N_0
  have hk : k.val < 3200 := k.isLt
  rw [View.read_apply]
  refine congrArg A (funext fun a => Fin.ext ?_)
  match a with
  | ⟨0, _⟩ => show win0_0.index t 0 * 64 + 1 * r.val = r.val; rw [hi.1]; omega
  | ⟨1, _⟩ => show win0_0.index t 1 * 3200 + 1 * k.val = (3200 * t.val + k.val) % 64000; rw [hi.2]; omega

/-- Entry (k, n) of point `t`'s weight block is entry (3200·t + k, n) of the array. -/
theorem read1 (c : Dev nD) (A : Buf (Elt Ideal) ((c : Thread nD τ).loc main_arg7)) (t : Fin cfg0.N) (k : Fin 3200)
    (n : Fin 1000) :
    (((cfg0.win 1).blk t).view.read (Elt Ideal) A : FVec Ideal S3200x1000 .f32) (ix2 k n)
      = (A : FVec Ideal S64000x1000 .f32) (ix2 (Cert.Dense.col t.val k) n) := by
  have hi := idx1 t
  have hN : t.val < 20 := lt_of_lt_of_eq t.isLt N_0
  have hk : k.val < 3200 := k.isLt
  rw [View.read_apply]
  refine congrArg A (funext fun a => Fin.ext ?_)
  match a with
  | ⟨0, _⟩ => show win0_1.index t 0 * 3200 + 1 * k.val = (3200 * t.val + k.val) % 64000; rw [hi.1]; omega
  | ⟨1, _⟩ => show win0_1.index t 1 * 1000 + 1 * n.val = n.val; rw [hi.2]; omega

/-- The bias row's window shows the whole [1, 1000] array at every point. -/
theorem read2 (c : Dev nD) (A : Buf (Elt Ideal) ((c : Thread nD τ).loc main_v90)) (t : Fin cfg0.N) :
    (((cfg0.win 2).blk t).view.read (Elt Ideal) A : FVec Ideal S1x1000 .f32) = A := by
  have hi := idx2 t
  funext j
  rw [View.read_apply]
  refine congrArg A (funext fun a => Fin.ext ?_)
  match a with
  | ⟨0, _⟩ => show win0_2.index t 0 * 1 + 1 * (j 0).val = (j 0).val; rw [hi.1]; omega
  | ⟨1, _⟩ => show win0_2.index t 1 * 1000 + 1 * (j 1).val = (j 1).val; rw [hi.2]; omega

/-- The second weights' window shows the whole [1000, 1] array at every point. -/
theorem read3 (c : Dev nD) (A : Buf (Elt Ideal) ((c : Thread nD τ).loc main_arg9)) (t : Fin cfg0.N) :
    (((cfg0.win 3).blk t).view.read (Elt Ideal) A : FVec Ideal S1000x1 .f32) = A := by
  have hi := idx3 t
  funext j
  rw [View.read_apply]
  refine congrArg A (funext fun a => Fin.ext ?_)
  match a with
  | ⟨0, _⟩ => show win0_3.index t 0 * 1000 + 1 * (j 0).val = (j 0).val; rw [hi.1]; omega
  | ⟨1, _⟩ => show win0_3.index t 1 * 1 + 1 * (j 1).val = (j 1).val; rw [hi.2]; omega

/-- The second bias's window shows the whole [1, 1] array at every point. -/
theorem read4 (c : Dev nD) (A : Buf (Elt Ideal) ((c : Thread nD τ).loc main_v91)) (t : Fin cfg0.N) :
    (((cfg0.win 4).blk t).view.read (Elt Ideal) A : FVec Ideal S1x1 .f32) = A := by
  have hi := idx4 t
  funext j
  rw [View.read_apply]
  refine congrArg A (funext fun a => Fin.ext ?_)
  match a with
  | ⟨0, _⟩ => show win0_4.index t 0 * 1 + 1 * (j 0).val = (j 0).val; rw [hi.1]; omega
  | ⟨1, _⟩ => show win0_4.index t 1 * 1 + 1 * (j 1).val = (j 1).val; rw [hi.2]; omega

/-! ## The same at the arrays the region finds -/

variable (m : (ℓ : Loc nD τ sig) → Buf (Elt Ideal) ℓ)

/-- The feature array as the region finds it. -/
def feat (c : Dev nD) : FVec Ideal S64x64000 .f32 := V m c main_v89
/-- The first weights as the region finds them. -/
def wts (c : Dev nD) : FVec Ideal S64000x1000 .f32 := V m c main_arg7

theorem blk0 (c : Dev nD) (t : Fin cfg0.N) (r : Fin 64) (k : Fin 3200) :
    (iblk m c 0 t : FVec Ideal S64x3200 .f32) (ix2 r k) = feat m c (ix2 r (Cert.Dense.col t.val k)) :=
  read0 c (V m c main_v89) t r k

theorem blk1 (c : Dev nD) (t : Fin cfg0.N) (k : Fin 3200) (n : Fin 1000) :
    (iblk m c 1 t : FVec Ideal S3200x1000 .f32) (ix2 k n) = wts m c (ix2 (Cert.Dense.col t.val k) n) :=
  read1 c (V m c main_arg7) t k n

theorem blk2 (c : Dev nD) (t : Fin cfg0.N) : (iblk m c 2 t : FVec Ideal S1x1000 .f32) = V m c main_v90 :=
  read2 c (V m c main_v90) t

theorem blk3 (c : Dev nD) (t : Fin cfg0.N) : (iblk m c 3 t : FVec Ideal S1000x1 .f32) = V m c main_arg9 :=
  read3 c (V m c main_arg9) t

theorem blk4 (c : Dev nD) (t : Fin cfg0.N) : (iblk m c 4 t : FVec Ideal S1x1 .f32) = V m c main_v91 :=
  read4 c (V m c main_v91) t

end Cert.KernelIdeal.Fold

end
-- ==== Proof.Fold.lean ====
/- The running total after each grid point.

   Point `t` adds to the running total the partial sum of block `t`: the products of the
   feature array's columns 3200·t … 3200·t + 3199 with the same rows of the first weights. The
   first point starts from zero. By induction on the point, the total after point `n` is the
   sum of the partial sums of blocks 0 … n — at every entry, as extended reals. -/
import proofs.«181487_j26560077758928_1_alg».proof.Proof.Gen.KernelIdeal.Value
import proofs.«181487_j26560077758928_1_alg».proof.Proof.Steps
import proofs.«181487_j26560077758928_1_alg».proof.Proof.Pay
import proofs.«181487_j26560077758928_1_alg».proof.Proof.Blocks

noncomputable section

open Idealize.ShloMosaic Idealize.ShloMosaic.TcCoe Idealize.SL.Sem
open Idealize.ShloMosaic.Pipeline (Dat)

namespace Cert.KernelIdeal.Fold

open Cert.KernelIdeal Cert.KernelIdeal.Gen Idealize.ShloMosaic.ValueIdx

variable (m : (ℓ : Loc nD τ sig) → Buf (Elt Ideal) ℓ) (ρ : Dev nD → PrngReg)

/-! ## The running total after each point -/

/-- After point `t`, the `n`-th, the running total is the sum of the partial sums of blocks 0 … n. -/
theorem total_eq (c : Dev nD) (n : ℕ) : ∀ (t : Fin cfg0.N), t.val = n →
    ((outsAt0 m c t.val t.isLt).2 : FVec Ideal S64x1000 .f32)
      = fun j => ∑ b ∈ Finset.range (n + 1), Cert.Dense.part (feat m c) (wts m c) b j := by
  induction n with
  | zero =>
    intro t ht
    have h0 : t.val % 20 = 0 := by omega
    have h1 : ¬t.val % 20 = 19 := by omega
    refine (Cert.KernelIdeal.Steps.total_first m c t h0 h1).trans ?_
    funext j
    obtain ⟨r, n', rfl⟩ : ∃ (r : Fin 64) (n' : Fin 1000), j = ix2 r n' := ⟨j 0, j 1, eq_ix2 j⟩
    refine (Cert.KernelIdeal.Pay.step_apply (iblk m c 0 t) (iblk m c 1 t) (k0_pay1 (F := Ideal)) r n').trans ?_
    rw [Cert.KernelIdeal.Pay.reset_apply, zero_add, Finset.sum_range_one]
    refine Finset.sum_congr rfl fun k _ => ?_
    have e0 := blk0 m c t r k
    have e1 := blk1 m c t k n'
    rw [ht] at e0 e1
    exact congrArg₂ (· * ·) e0 e1
  | succ n ihn =>
    intro t ht
    have hN : t.val < 20 := lt_of_lt_of_eq t.isLt N_0
    have h0 : ¬t.val % 20 = 0 := by omega
    have ih : (Cert.KernelIdeal.Steps.prev m c t : FVec Ideal S64x1000 .f32)
        = fun j => ∑ b ∈ Finset.range (n + 1), Cert.Dense.part (feat m c) (wts m c) b j :=
      ihn ⟨t.val - 1, Nat.lt_of_le_of_lt (Nat.sub_le _ _) t.isLt⟩ (by show t.val - 1 = n; omega)
    have hstep : ((outsAt0 m c t.val t.isLt).2 : FVec Ideal S64x1000 .f32)
        = k0_pay2 (F := Ideal) (iblk m c 0 t) (iblk m c 1 t) (Cert.KernelIdeal.Steps.prev m c t) := by
      by_cases h19 : t.val % 20 = 19
      · exact Cert.KernelIdeal.Steps.total_last m c t h0 h19
      · exact Cert.KernelIdeal.Steps.total_mid m c t h0 h19
    refine hstep.trans ?_
    funext j
    obtain ⟨r, n', rfl⟩ : ∃ (r : Fin 64) (n' : Fin 1000), j = ix2 r n' := ⟨j 0, j 1, eq_ix2 j⟩
    refine (Cert.KernelIdeal.Pay.step_apply (iblk m c 0 t) (iblk m c 1 t) (Cert.KernelIdeal.Steps.prev m c t) r n').trans ?_
    rw [Finset.sum_range_succ _ (n + 1)]
    refine congrArg₂ (· + ·) (congrFun ih (ix2 r n')) ?_
    refine Finset.sum_congr rfl fun k _ => ?_
    have e0 := blk0 m c t r k
    have e1 := blk1 m c t k n'
    rw [ht] at e0 e1
    exact congrArg₂ (· * ·) e0 e1

end Cert.KernelIdeal.Fold

end
-- ==== Proof.HostSide.lean ====
/- What the region finds in the arrays that host operations wrote before it.

   Before the kernel is launched the program computes, with ordinary array operations, the
   [64, 64000] feature array (two rounds of normalized neighbourhood sums, each followed by a
   hyperbolic tangent, then laid out one row per graph) and reshapes the two bias vectors to
   [1, 1000] and [1, 1]. The reference program starts with exactly the same operations on the
   same arguments, so the feature array the kernel reads is the reference's own intermediate
   value: the same composition of the same operations, never opened here. -/
import proofs.«181487_j26560077758928_1_alg».proof.Proof.Gen.KernelIdeal.Frame
import proofs.«181487_j26560077758928_1_alg».proof.Proof.RefReadP
import Idealize.ShloMosaic.Lib.StableHlo.Run

noncomputable section

open Idealize.ShloMosaic Idealize.ShloMosaic.TcCoe Idealize.SL.Sem Idealize.ShloMosaic.StableHlo

namespace Cert.KernelIdeal.HostSide

open Cert.KernelIdeal Cert.KernelIdeal.Gen

variable {F : FTy → Type} [FloatOps F]
variable (m : (ℓ : Loc nD τ sig) → Buf (Elt F) ℓ)

/-- The first bias as the region finds it: the [1000] argument laid out as one row. -/
theorem bias1_eq (c : Dev nD) :
    (V m c main_v90 : (⟨S1x1000, .f32⟩ : BufTy).Contents (Elt F))
      = shapeCast S1x1000 (m ((c : Thread nD τ).loc main_arg8)) shapeCasts_S1000_S1x1000 := by
  dsimp only [V]
  simp only [hostOps0, hostOps0_1, hostOps0_2, hostOps0_3, hostOps0_4, List.flatten_cons, List.flatten_nil,
    List.append_nil, List.cons_append, List.nil_append]
  after_results_simp <;> rfl

/-- The second bias as the region finds it: the [1] argument laid out as a [1, 1] array. -/
theorem bias2_eq (c : Dev nD) :
    (V m c main_v91 : (⟨S1x1, .f32⟩ : BufTy).Contents (Elt F))
      = shapeCast S1x1 (m ((c : Thread nD τ).loc main_arg10)) shapeCasts_S1_S1x1 := by
  dsimp only [V]
  simp only [hostOps0, hostOps0_1, hostOps0_2, hostOps0_3, hostOps0_4, List.flatten_cons, List.flatten_nil,
    List.append_nil, List.cons_append, List.nil_append]
  after_results_simp <;> rfl

set_option maxRecDepth 8192 in
set_option maxHeartbeats 50800000 in
/-- The feature array as the region finds it is the reference's intermediate value of the same
    arguments: both are the same composition of the same host operations. -/
theorem features_eq (c : Dev nD) :
    (V m c main_v89 : (⟨S64x64000, .f32⟩ : BufTy).Contents (Elt F))
      = Cert.ReferenceIdeal.ReadP.val_main_v89 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  dsimp only [V]
  simp only [hostOps0, hostOps0_1, hostOps0_2, hostOps0_3, hostOps0_4, List.flatten_cons, List.flatten_nil,
    List.append_nil, List.cons_append, List.nil_append]
  after_results_simp <;> rfl

end Cert.KernelIdeal.HostSide

end
-- ==== Proof.Result.lean ====
/- The kernel's run, with its result array named.

   At the last grid point the output block is formed from the running total, which by then is
   the full contraction of the feature array with the first weights. The small operands the
   body reads there are the arguments themselves: the bias row is the [1000] bias laid out as
   one row, the second bias the [1] bias laid out as a [1, 1] array, the second weights the
   argument as it is. That block is the only one ever written back to the [64, 1] result
   array and it covers the array, so after the run the array is the specification's `out` of
   the feature array (the value of the host operations the reference shares) and the weight and
   bias arguments. -/
import proofs.«181487_j26560077758928_1_alg».proof.Proof.Fold
import proofs.«181487_j26560077758928_1_alg».proof.Proof.HostSide

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The result: the dense head of the shared feature computation and the weight and bias arguments. -/
def G (c : Dev nD) : Buf (Elt Ideal) ((c : Thread nD τ).loc main_v92) :=
  Cert.Dense.out
    (Cert.ReferenceIdeal.ReadP.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (m ((c : Thread nD τ).loc main_arg7)) (m ((c : Thread nD τ).loc main_arg8)) (m ((c : Thread nD τ).loc main_arg9)) (m ((c : Thread nD τ).loc main_arg10))

/-- The last grid point. -/
abbrev tLast : Fin cfg0.N := ⟨19, lt_of_lt_of_eq (by decide : 19 < 20) N_0.symm⟩

/-- Entry (0, n) of the bias row the region finds is entry n of the bias argument. -/
theorem bias1_apply (c : Dev nD) (n : Fin 1000) :
    (V m c main_v90 : FVec Ideal S1x1000 .f32) (ix2 0 n) = ((m ((c : Thread nD τ).loc main_arg8)) : FVec Ideal S1000 .f32) (ix1 n) :=
  (congrFun (Cert.KernelIdeal.HostSide.bias1_eq m c) (ix2 0 n)).trans
    (shapeCast_apply _ shapeCasts_S1000_S1x1000 (ix2 0 n) (ix1 n)
      (by rw [Shape.rowMajor_val_one, Shape.rowMajor_val_two]; show n.val = 0 * 1000 + n.val; omega))

/-- The one entry of the second bias the region finds is the one entry of the bias argument. -/
theorem bias2_apply (c : Dev nD) :
    (V m c main_v91 : FVec Ideal S1x1 .f32) (ix2 0 0) = ((m ((c : Thread nD τ).loc main_arg10)) : FVec Ideal S1 .f32) (ix1 0) :=
  (congrFun (Cert.KernelIdeal.HostSide.bias2_eq m c) (ix2 0 0)).trans
    (shapeCast_apply _ shapeCasts_S1_S1x1 (ix2 0 0) (ix1 0)
      (by rw [Shape.rowMajor_val_one, Shape.rowMajor_val_two]; rfl))

/-- What the last point leaves in the output block is the result. -/
theorem out_eq (c : Dev nD) (t : Fin cfg0.N) (ht : t.val = 19) :
    ((outsAt0 m c t.val t.isLt).1 : FVec Ideal S64x1 .f32) = G m c := by
  have h0 : ¬t.val % 20 = 0 := by omega
  have h19 : t.val % 20 = 19 := by omega
  refine (Cert.KernelIdeal.Steps.out_last m c t h0 h19).trans ?_
  -- the total after the last point: the full contraction
  have htot : k0_pay2 (F := Ideal) (iblk m c 0 t) (iblk m c 1 t) (Cert.KernelIdeal.Steps.prev m c t)
      = fun j => Cert.Dense.hidden (Cert.KernelIdeal.Fold.feat m c) (Cert.KernelIdeal.Fold.wts m c) j := by
    refine (Cert.KernelIdeal.Steps.total_last m c t h0 h19).symm.trans
      ((Cert.KernelIdeal.Fold.total_eq m c 19 t ht).trans ?_)
    funext j
    exact (Cert.Dense.hidden_eq_parts _ _ j).symm
  have hH : Cert.Dense.hidden (Cert.KernelIdeal.Fold.feat m c) (Cert.KernelIdeal.Fold.wts m c)
      = Cert.Dense.hidden
          (Cert.ReferenceIdeal.ReadP.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
          (m ((c : Thread nD τ).loc main_arg7)) :=
    congrArg₂ Cert.Dense.hidden (Cert.KernelIdeal.HostSide.features_eq m c) (V_main_arg7 m c)
  funext j
  obtain ⟨r, z, rfl⟩ : ∃ (r : Fin 64) (z : Fin 1), j = ix2 r z := ⟨j 0, j 1, eq_ix2 j⟩
  refine (Cert.KernelIdeal.Pay.out_apply
    (k0_pay2 (F := Ideal) (iblk m c 0 t) (iblk m c 1 t) (Cert.KernelIdeal.Steps.prev m c t))
    (iblk m c 2 t) (iblk m c 3 t) (iblk m c 4 t) r z).trans ?_
  refine congrArg₂ (· + ·) (Finset.sum_congr rfl fun n _ => congrArg₂ (· * ·)
      (congrArg₂ max (congrArg₂ (· + ·) ?_ ?_) rfl) ?_) ?_
  · exact (congrFun htot (ix2 r n)).trans (congrFun hH (ix2 r n))
  · exact (congrFun (Cert.KernelIdeal.Fold.blk2 m c t) (ix2 0 n)).trans (bias1_apply m c n)
  · exact (congrFun (Cert.KernelIdeal.Fold.blk3 m c t) (ix2 n z)).trans (congrFun (V_main_arg9 m c) (ix2 n z))
  · exact (congrFun (Cert.KernelIdeal.Fold.blk4 m c t) (ix2 0 0)).trans (bias2_apply m c)

/-- The one write-back, at the last point, writes the result: block (0, 0) of the [64, 1] array is the array. -/
theorem flushed_eq (c : Dev nD) (t : Fin cfg0.N) (hf : (cfg0.win 5).flush t = true) :
    (dats m 0 c).flushed 5 t = ((cfg0.win 5).blk t).view.read (Elt Ideal) (G m c) := by
  have h19 : t.val % 20 = 19 := (flush0_5 t).mp hf
  have hN : t.val < 20 := lt_of_lt_of_eq t.isLt N_0
  obtain rfl : t = tLast := Fin.ext (by show t.val = 19; omega)
  show (cfg0.win 5).cut (grid0.coords tLast) ((dats m 0 c).after 5 tLast) = _
  rw [after0_5, out_eq m c tLast rfl]
  have hz' : (fun a => win0_5.index tLast a * main_v92.ty.shape.size a) = fun _ => 0 :=
    funext fun a => by fin_cases a <;> decide +kernel
  exact (Memref.read_access_unit_zero (Elt Ideal) main_v92 hz' (fun a => by rw [congrFun hz' a]; simp) (G m c)).symm

/-- Every entry of the result array lies in the block the last point writes back. -/
theorem cover (i : S64x1.Idx) : ∃ t : Fin cfg0.N, (cfg0.win 5).flush t = true ∧ i ∈ ((cfg0.win 5).blk t).view.set := by
  have h0 : (i 0 : Nat) < 64 := (i 0).isLt
  have h1 : (i 1 : Nat) < 1 := (i 1).isLt
  refine ⟨tLast, (flush0_5 tLast).mpr (by decide), ?_⟩
  show i ∈ ((View.whole main_v92).slice (win0_5.rect tLast)).set
  rw [View.set_slice_whole, Rect.mem_set_unit]
  intro a
  match a with
  | ⟨0, _⟩ =>
    show win0_5.index tLast 0 * win0_5.size 0 ≤ (i 0 : Nat)
      ∧ (i 0 : Nat) < win0_5.index tLast 0 * win0_5.size 0 + win0_5.xsize (grid0.coords tLast) 0
    rw [show win0_5.index tLast 0 * win0_5.size 0 = 0 from by decide +kernel,
      show win0_5.xsize (grid0.coords tLast) 0 = 64 from by decide +kernel]
    omega
  | ⟨1, _⟩ =>
    show win0_5.index tLast 1 * win0_5.size 1 ≤ (i 1 : Nat)
      ∧ (i 1 : Nat) < win0_5.index tLast 1 * win0_5.size 1 + win0_5.xsize (grid0.coords tLast) 1
    rw [show win0_5.index tLast 1 * win0_5.size 1 = 0 from by decide +kernel,
      show win0_5.xsize (grid0.coords tLast) 1 = 1 from by decide +kernel]
    omega

/-- So the result array ends holding the result. -/
theorem final (c : Dev nD) : (dats m 0 c).arrAt 5 cfg0.N = G m c :=
  (dats m 0 c).arrAt_eq_of_cover 5 (G m c) (flushed_eq m c) cover

/-- The kernel's run: every weakly fair execution ends with the result array at the result and the arguments unchanged. -/
theorem run : θ_run defs (onTc (τ := τ) (main (F := Ideal))) ⟨m, fun _ => 0, ρ⟩ fun r => ∀ c : Dev nD,
      r.2.mem ((c : Thread nD τ).loc main_v92) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩)
    (Cert.KernelIdeal.Value.run_blocks m ρ)

end Cert.KernelIdeal.Result

end
-- ==== Proof.lean ====
/- The kernel and the reference compute the same [64, 1] array on the extended reals.

   Both programs first compute, with the same host operations on the same arguments, a
   [64, 64000] feature array `H` (two rounds of normalized neighbourhood sums over the graph's
   edges, each followed by a hyperbolic tangent; one row per graph). The reference then forms

       out (r, 0) = (∑ₙ max ((∑ₖ H (r, k) · W (k, n)) + b n) 0 · W' (n, 0)) + b' 0

   with the inner sum over all 64000 columns at once. The kernel walks those columns in 20
   blocks of 3200: it keeps a [64, 1000] running total, set to zero at the first block, adds
   each block's partial sum of products in turn, and after the last block applies the bias,
   the maximum with zero, the second contraction and the second bias — the same formula with
   the inner sum taken block by block. A finite sum of extended reals does not depend on how
   it is grouped, so the two results agree entry by entry; no finiteness of the inputs is used.

   The kernel's idealization rewrote nothing, so it is the printed program read on the
   extended reals; each program runs to completion without fault and leaves its arguments
   unchanged (the kernel's frames are the generated ones, the reference's is its run). -/
import proofs.«181487_j26560077758928_1_alg».proof.Defs
import proofs.«181487_j26560077758928_1_alg».proof.Proof.Gen.Kernel
import proofs.«181487_j26560077758928_1_alg».proof.Proof.Gen.Kernel.Skeleton
import proofs.«181487_j26560077758928_1_alg».proof.Proof.Gen.Kernel.Launch
import proofs.«181487_j26560077758928_1_alg».proof.Proof.Gen.Kernel.Points
import proofs.«181487_j26560077758928_1_alg».proof.Proof.Gen.Kernel.Frame
import proofs.«181487_j26560077758928_1_alg».proof.Proof.Gen.KernelIdeal
import proofs.«181487_j26560077758928_1_alg».proof.Proof.Gen.KernelIdeal.Skeleton
import proofs.«181487_j26560077758928_1_alg».proof.Proof.Gen.KernelIdeal.Launch
import proofs.«181487_j26560077758928_1_alg».proof.Proof.Gen.KernelIdeal.Points
import proofs.«181487_j26560077758928_1_alg».proof.Proof.Gen.KernelIdeal.Frame
import proofs.«181487_j26560077758928_1_alg».proof.Proof.Gen.ReferenceIdeal
import proofs.«181487_j26560077758928_1_alg».proof.Proof.Gen.Pre_finite_inputs
import proofs.«181487_j26560077758928_1_alg».proof.Proof.Gen.KernelIdeal.Value
import proofs.«181487_j26560077758928_1_alg».proof.Proof.RefRunP
import proofs.«181487_j26560077758928_1_alg».proof.Proof.RefReadP
import proofs.«181487_j26560077758928_1_alg».proof.Proof.RefSide
import proofs.«181487_j26560077758928_1_alg».proof.Proof.Result
import Idealize.ShloMosaic.Adequacy
import Idealize.ShloMosaic.Init

noncomputable section

namespace Cert.Proof

open Idealize.ShloMosaic Idealize.SL.Sem

/-- The printed kernel runs to completion and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, the kernel's result array and the reference's
    result are the same function of those arguments: the dense head of the shared features. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v98_eq, Cert.ReferenceIdeal.RefSide.result_eq,
    e0, e1, e3, e4, e5, e6, e7, e8, e9, e10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
